-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S1x1 : Shape := ⟨2, ![1, 1]⟩
abbrev S2000 : Shape := ⟨1, ![2000]⟩

abbrev nBuf : Space → Nat
  | .hbm => 85
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S1x128, .f32⟩
  | .hbm, ⟨81, _⟩ => ⟨S1x128, .f32⟩
  | .hbm, ⟨82, _⟩ => ⟨S1x1, .f32⟩
  | .hbm, ⟨83, _⟩ => ⟨S50000x1, .f32⟩
  | .hbm, ⟨84, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x1, .f32⟩
  | .local _ .vmem, ⟨33, _⟩ => ⟨S2000x1, .f32⟩
  | .local _ .vmem, ⟨34, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x1_S1x128 : S128x1.ShapeCasts S1x128
  shapeCasts_S1_S1x1 : S1.ShapeCasts S1x1
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x1.size a ≤ S50000x1.size a
  hwx2_8 : ∀ i : grid2.Coords, EltTy.bits .f32 = 32 ∨ (Rect.block (s := S50000x1) S2000x1.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v53) S2000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S50000x128, .f32⟩
  | .hbm, ⟨108, _⟩ => ⟨S50000x128, .f32⟩
  | .hbm, ⟨109, _⟩ => ⟨S50000x1, .f32⟩
  | .hbm, ⟨110, _⟩ => ⟨S1x1, .f32⟩
  | .hbm, ⟨111, _⟩ => ⟨S50000x1, .f32⟩
  | .hbm, ⟨112, _⟩ => ⟨S50000x1, .f32⟩
  | .hbm, ⟨113, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_cst : Ref sig .tc := ⟨.hbm, 82, rfl⟩
abbrev main_call2_v0 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call3_cst : Ref sig .tc := ⟨.hbm, 106, rfl⟩
abbrev main_call3_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  THE IDEALIZED KERNEL'S RUN WITH ITS RESULT NAMED.

  The program is three grids of row blocks among stretches of host operations.  Its generated frame follows the buffer
  contents from segment to segment (the fold `W0 … W9`) and ends with every buffer of the device at `W9`'s contents; the
  frame claim keeps of that only the argument arrays.  Here the same run is stated keeping also the result buffer: it
  ends at `W9`'s contents of that buffer, which the following modules read back, segment by segment, as one function of
  the arguments.
-/
import proofs.«131212_j63625645523668_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last segment boundary's
    contents and the argument arrays as launched. -/
theorem run : θ_run defs (onTc (τ := τ) (main (F := F))) ⟨m, fun _ => 0, ρ⟩ (fun r => ∀ c : Dev nD,
      r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.RunValue

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«131212_j63625645523668_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«131212_j63625645523668_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«131212_j63625645523668_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«131212_j63625645523668_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«131212_j63625645523668_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.LibSageLayer.lean ====
/-
  THE NETWORK'S LAYER AND HEAD AS WHOLE-ARRAY FUNCTIONS, at the ideal values.

  A node's new feature row is  max( ((msum ⊙ inv) · Wl + b) + h · Wr , 0 ):  the summed messages of the node, each scaled by
  the node's inverse degree (one number per row, kept as a column), through one dense layer, plus the node's own row
  through a second matrix, rectified.  The head sends a feature row y to  (∑ j, y j · wh j) + bh.
  Both are stated here for any number of rows, index by index, over the dense layer, the matrix product and the rectifier
  of the imported lemma files.  Row p of the result depends only on row p of the three tall operands, so a block of rows
  of the result is the result of the block of rows: that is what lets a grid of row blocks be read as one array.
  The two spellings of the layer (vector unit: product into a zero accumulator, bias as one row broadcast, splat zero;
  host: dot_general, bias broadcast twice, zero constant broadcast) are each shown equal to the one function.  No sum is
  regrouped and nothing is assumed finite.
-/
import proofs.«131212_j63625645523668_1_alg».proof.Proof.LibRowBias
import proofs.«131212_j63625645523668_1_alg».proof.Proof.LibProdRows
import proofs.«131212_j63625645523668_1_alg».proof.Proof.LibLayout3

noncomputable section

open scoped BigOperators

namespace Cert.Sage

open Idealize.ShloMosaic Idealize.ShloMosaic.ValueIdx Cert.DenseRow Cert.RowBias Cert.ProdRows
open Cert.KernelIdeal.RegionValue (prodArr prodArr_apply)

/-! ## Columns and rows -/

/-- A vector of `a` numbers as an `a`-by-`1` column. -/
def col {a : ℕ} (x : (⟨1, ![a]⟩ : Shape).Idx → EReal) : (⟨2, ![a, 1]⟩ : Shape).Idx → EReal := fun i => x (ix1 (i 0))

/-- Every row of `ms` scaled by that row's entry of the column `inv`. -/
def scaleRows {R N : ℕ} (ms : (⟨2, ![R, N]⟩ : Shape).Idx → EReal) (inv : (⟨2, ![R, 1]⟩ : Shape).Idx → EReal) :
    (⟨2, ![R, N]⟩ : Shape).Idx → EReal := fun i => ms i * inv (ix2 (i 0) (0 : Fin 1))

theorem scaleRows_apply {R N : ℕ} (ms : (⟨2, ![R, N]⟩ : Shape).Idx → EReal) (inv : (⟨2, ![R, 1]⟩ : Shape).Idx → EReal)
    (p : Fin R) (k : Fin N) : scaleRows ms inv (ix2 p k) = ms (ix2 p k) * inv (ix2 p (0 : Fin 1)) := rfl

/-! ## The layer and the head -/

/-- One layer on `R` rows: `max (((ms ⊙ inv) · wl + b) + h · wr) 0`. -/
def layerFn {R K N : ℕ} (ms : (⟨2, ![R, K]⟩ : Shape).Idx → EReal) (inv : (⟨2, ![R, 1]⟩ : Shape).Idx → EReal)
    (h : (⟨2, ![R, K]⟩ : Shape).Idx → EReal) (wl wr : (⟨2, ![K, N]⟩ : Shape).Idx → EReal)
    (b : (⟨1, ![N]⟩ : Shape).Idx → EReal) : (⟨2, ![R, N]⟩ : Shape).Idx → EReal :=
  actArr zf (addArr (layerArr (scaleRows ms inv) wl b) (prodArr h wr))

/-- Row `p` of the layer depends on row `p` of the messages, of the inverse degrees and of the features only. -/
theorem layerFn_rows {R R' K N : ℕ} (ms : (⟨2, ![R, K]⟩ : Shape).Idx → EReal) (inv : (⟨2, ![R, 1]⟩ : Shape).Idx → EReal)
    (h : (⟨2, ![R, K]⟩ : Shape).Idx → EReal) (Ms : (⟨2, ![R', K]⟩ : Shape).Idx → EReal)
    (Inv : (⟨2, ![R', 1]⟩ : Shape).Idx → EReal) (H : (⟨2, ![R', K]⟩ : Shape).Idx → EReal)
    (wl wr : (⟨2, ![K, N]⟩ : Shape).Idx → EReal) (b : (⟨1, ![N]⟩ : Shape).Idx → EReal) (p : Fin R) (p' : Fin R')
    (h1 : ∀ k : Fin K, ms (ix2 p k) = Ms (ix2 p' k)) (h2 : inv (ix2 p (0 : Fin 1)) = Inv (ix2 p' (0 : Fin 1)))
    (h3 : ∀ k : Fin K, h (ix2 p k) = H (ix2 p' k)) (c : Fin N) :
    layerFn ms inv h wl wr b (ix2 p c) = layerFn Ms Inv H wl wr b (ix2 p' c) := by
  unfold layerFn
  refine actArr_rows zf _ _ p p' (fun j => ?_) c
  refine addArr_rows _ _ _ _ p p' (fun j' => ?_) (fun j' => ?_) j
  · exact layerArr_rows _ _ wl b p p' (fun k => by rw [scaleRows_apply, scaleRows_apply, h1 k, h2]) j'
  · exact prodArr_rows _ _ wr p p' h3 j'

/-- The head on `R` rows, the weight an `[N, 1]` column and the bias one number: a dense layer with one output. -/
def headFn {R N : ℕ} (y : (⟨2, ![R, N]⟩ : Shape).Idx → EReal) (wh : (⟨2, ![N, 1]⟩ : Shape).Idx → EReal)
    (bh : (⟨1, ![1]⟩ : Shape).Idx → EReal) : (⟨2, ![R, 1]⟩ : Shape).Idx → EReal := layerArr y wh bh

theorem headFn_apply {R N : ℕ} (y : (⟨2, ![R, N]⟩ : Shape).Idx → EReal) (wh : (⟨2, ![N, 1]⟩ : Shape).Idx → EReal)
    (bh : (⟨1, ![1]⟩ : Shape).Idx → EReal) (p : Fin R) (u : Fin 1) :
    headFn y wh bh (ix2 p u) = (∑ j : Fin N, y (ix2 p j) * wh (ix2 j u)) + bh (ix1 u) := rfl

/-! ## The two spellings of the layer -/

/-- On the vector unit (the extents of one block of `R` rows): the scaled messages through a product into the zero
    accumulator, the bias as one row broadcast over the rows, the features through a second product, and the larger of
    the sum and the splat zero.  The changes of format on the way into the products are the identity. -/
theorem klayer_eq {R K N : ℕ} (x0 : FVec Ideal ⟨2, ![R, K]⟩ .f32) (x1 : FVec Ideal ⟨2, ![R, 1]⟩ .f32)
    (x2 : FVec Ideal ⟨2, ![R, K]⟩ .f32) (x3 x4 : FVec Ideal ⟨2, ![K, N]⟩ .f32) (x5 : FVec Ideal ⟨2, ![1, N]⟩ .f32)
    (hc0 : (⟨2, ![R, K]⟩ : Shape).ShapeCasts ⟨2, ![R, K]⟩) (hc1 : (⟨2, ![R, 1]⟩ : Shape).ShapeCasts ⟨2, ![R, 1]⟩)
    (hb1 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    maximumf (addf (addf
        (matmul (DotDims.plain R K N) none
          (truncf .bf16 (mulf (shapeCast ⟨2, ![R, K]⟩ x0 hc0) (broadcastTo ⟨2, ![R, K]⟩ (shapeCast ⟨2, ![R, 1]⟩ x1 hc1) hb1)) hbits)
          (truncf .bf16 x3 hbits) (constant ⟨2, ![R, N]⟩ .f32 0x00000000#32))
        (broadcastTo ⟨2, ![R, N]⟩ (shapeCast ⟨2, ![1, N]⟩ x5 hc5) hb5))
        (matmul (DotDims.plain R K N) none (truncf .bf16 x2 hbits) (truncf .bf16 x4 hbits)
          (constant ⟨2, ![R, N]⟩ .f32 0x00000000#32)))
      (broadcast ⟨2, ![R, N]⟩ (Scalar.ofBits (F := Ideal) .f32 0x00000000#32))
      = layerFn x0 x1 x2 x3 x4 (unrow x5) := by
  rw [kact, addf_eq,
    klayer1Arr (DotDims.plain R K N) rfl rfl (Cert.PlainDot.lhs_at R K N) (Cert.PlainDot.rhs_at R K N), kprod]
  unfold layerFn
  have e : (truncf .bf16 (mulf (shapeCast ⟨2, ![R, K]⟩ x0 hc0)
      (broadcastTo ⟨2, ![R, K]⟩ (shapeCast ⟨2, ![R, 1]⟩ x1 hc1) hb1)) hbits : FVec Ideal ⟨2, ![R, K]⟩ .bf16)
      = scaleRows x0 x1 := by
    funext i
    obtain ⟨p, k, rfl⟩ : ∃ (p : Fin R) (k : Fin K), i = ix2 p k := ⟨i 0, i 1, eq_ix2 i⟩
    rw [scaleRows_apply]
    show (shapeCast ⟨2, ![R, K]⟩ x0 hc0) (ix2 p k)
      * (broadcastTo ⟨2, ![R, K]⟩ (shapeCast ⟨2, ![R, 1]⟩ x1 hc1) hb1) (ix2 p k) = _
    rw [shapeCast_self, shapeCast_self, Cert.LibLayout3.broadcastTo_a1_ab_apply]
  rw [e]
  rfl

/-- On the host: the messages times the inverse-degree column broadcast across the columns, through `dot_general`, the
    bias broadcast to one row and then over the rows, the features through a second `dot_general`, and the larger of the
    sum and the zero constant broadcast from a scalar. -/
theorem hlayer_eq {R K N : ℕ} (ms : FVec Ideal ⟨2, ![R, K]⟩ .f32) (inv : FVec Ideal ⟨2, ![R, 1]⟩ .f32)
    (h : FVec Ideal ⟨2, ![R, K]⟩ .f32) (wl wr : FVec Ideal ⟨2, ![K, N]⟩ .f32) (b : FVec Ideal ⟨1, ![N]⟩ .f32)
    (hi : (⟨2, ![R, 1]⟩ : Shape).BroadcastsInDim ⟨2, ![R, K]⟩ ![0, 1])
    (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf
        (Host.dotGeneral (DotDims.plain R K N) none (mulf ms (broadcastInDim ⟨2, ![R, K]⟩ ![0, 1] hi inv)) wl)
        (broadcastInDim ⟨2, ![R, N]⟩ ![0, 1] h2 (broadcastInDim ⟨2, ![1, N]⟩ ![1] h1 b)))
        (Host.dotGeneral (DotDims.plain R K N) none h wr))
      (broadcastInDim ⟨2, ![R, N]⟩ ![] h0 (constant (F := Ideal) ⟨0, ![]⟩ .f32 0x00000000#32))
      = layerFn ms inv h wl wr b := by
  rw [hact, addf_eq, Cert.PlainDot.hlayer, hprod]
  unfold layerFn
  have e : (mulf ms (broadcastInDim ⟨2, ![R, K]⟩ ![0, 1] hi inv) : FVec Ideal ⟨2, ![R, K]⟩ .f32) = scaleRows ms inv := by
    funext i
    obtain ⟨p, k, rfl⟩ : ∃ (p : Fin R) (k : Fin K), i = ix2 p k := ⟨i 0, i 1, eq_ix2 i⟩
    rw [scaleRows_apply]
    show ms (ix2 p k) * (broadcastInDim ⟨2, ![R, K]⟩ ![0, 1] hi inv) (ix2 p k) = _
    rw [broadcastInDim_apply _ hi inv (ix2 p k) (ix2 p (0 : Fin 1)) (fun a => by
      match a with
      | ⟨0, _⟩ =>
        show p.val = if R = 1 then 0 else p.val
        split
        · have := p.isLt; omega
        · rfl
      | ⟨1, _⟩ => rfl)]
  rw [e]

end Cert.Sage

end
-- ==== Proof.LibSageHead.lean ====
/-
  THE HEAD AND THE SMALL LAYOUT FACTS AROUND THE LAYERS, at the ideal values.

  The head sends a feature row `y` to `(∑ j, y j · wh j) + bh`.  The kernel computes it on the vector unit as a product
  with the weight laid out as one row, summed along the lanes, plus the bias kept as a one-by-one array; the host as a
  `dot_general` with the weight as a column plus the bias broadcast twice.  Both are the one function `headFn`.  The sum
  is over the same index in the same order on both sides, and nothing is assumed finite.
  Also here: a vector as a column by a cast and by a broadcast (the same column), a column of weights read as one row,
  and a one-entry vector read as a one-by-one array.
-/
import proofs.«131212_j63625645523668_1_alg».proof.Proof.LibSageLayer

noncomputable section

open scoped BigOperators

namespace Cert.Sage

open Idealize.ShloMosaic Idealize.ShloMosaic.ValueIdx Cert.DenseRow Cert.RowBias Cert.ProdRows

/-! ## A vector as a column, two ways -/

theorem cast_col {a : ℕ} (x : (⟨1, ![a]⟩ : Shape).Idx → EReal) (h : (⟨1, ![a]⟩ : Shape).ShapeCasts ⟨2, ![a, 1]⟩) :
    shapeCast ⟨2, ![a, 1]⟩ x h = col x := by
  funext i
  obtain ⟨p, u, rfl⟩ : ∃ (p : Fin a) (u : Fin 1), i = ix2 p u := ⟨i 0, i 1, eq_ix2 i⟩
  exact Cert.LibLayout3.shapeCast_a_a1_apply x h p u

theorem bcast_col {a : ℕ} (x : (⟨1, ![a]⟩ : Shape).Idx → EReal)
    (h : (⟨1, ![a]⟩ : Shape).BroadcastsInDim ⟨2, ![a, 1]⟩ ![0]) :
    broadcastInDim ⟨2, ![a, 1]⟩ ![0] h x = col x := by
  funext i
  obtain ⟨p, u, rfl⟩ : ∃ (p : Fin a) (u : Fin 1), i = ix2 p u := ⟨i 0, i 1, eq_ix2 i⟩
  refine broadcastInDim_apply _ h x (ix2 p u) (ix1 p) (fun ax => ?_)
  match ax with
  | ⟨0, _⟩ =>
    show p.val = if a = 1 then 0 else p.val
    split
    · have := p.isLt; omega
    · rfl

/-! ## A column of weights read as one row; a one-entry vector as a one-by-one array -/

theorem cast_N1_1N_apply {N : ℕ} (x : (⟨2, ![N, 1]⟩ : Shape).Idx → EReal)
    (h : (⟨2, ![N, 1]⟩ : Shape).ShapeCasts ⟨2, ![1, N]⟩) (j : Fin N) (u : Fin 1) :
    shapeCast ⟨2, ![1, N]⟩ x h (ix2 (0 : Fin 1) j) = x (ix2 j u) :=
  shapeCast_apply x h _ _ (by
    have hu : u.val = 0 := by omega
    rw [Shape.rowMajor_val_two, Shape.rowMajor_val_two]
    show j.val * 1 + u.val = (0 : Fin 1).val * N + j.val
    simp only [Fin.val_zero]
    omega)

theorem cast_1_11_apply (x : (⟨1, ![1]⟩ : Shape).Idx → EReal) (h : (⟨1, ![1]⟩ : Shape).ShapeCasts ⟨2, ![1, 1]⟩)
    (u : Fin 1) : shapeCast ⟨2, ![1, 1]⟩ x h (ix2 (0 : Fin 1) u) = x (ix1 u) :=
  shapeCast_a_1a_apply x h 0 u

/-! ## The head's two spellings -/

/-- On the vector unit, at `(p, u)`: the features times the weight row broadcast over the rows, summed along the lanes,
    cast to a column, plus the one-by-one bias broadcast down the column. -/
theorem khead_apply {R N : ℕ} (y : FVec Ideal ⟨2, ![R, N]⟩ .f32) (x6 : FVec Ideal ⟨2, ![1, N]⟩ .f32)
    (x7 : FVec Ideal ⟨2, ![1, 1]⟩ .f32)
    (hc6 : (⟨2, ![1, N]⟩ : Shape).ShapeCasts ⟨2, ![1, N]⟩) (hb6 : (⟨2, ![1, N]⟩ : Shape).Broadcasts ⟨2, ![R, N]⟩)
    (hred : Shape.Reduces ⟨2, ![R, N]⟩ [1] ⟨1, ![R]⟩) (hacc : (0x00000000#32 : BitVec 32) = 0x00000000#32)
    (hcr : (⟨1, ![R]⟩ : Shape).ShapeCasts ⟨2, ![R, 1]⟩)
    (hc7 : (⟨2, ![1, 1]⟩ : Shape).ShapeCasts ⟨2, ![1, 1]⟩) (hb7 : (⟨2, ![1, 1]⟩ : Shape).Broadcasts ⟨2, ![R, 1]⟩)
    (p : Fin R) (u : Fin 1) :
    addf (shapeCast ⟨2, ![R, 1]⟩
        (multiReduction (s := ⟨2, ![R, N]⟩) .add ([1] : List (Fin 2)) ⟨1, ![R]⟩
          (mulf y (broadcastTo ⟨2, ![R, N]⟩ (shapeCast ⟨2, ![1, N]⟩ x6 hc6) hb6)) 0x00000000#32 hred (.inl rfl) hacc) hcr)
        (broadcastTo ⟨2, ![R, 1]⟩ (shapeCast ⟨2, ![1, 1]⟩ x7 hc7) hb7) (ix2 p u)
      = (∑ j : Fin N, y (ix2 p j) * x6 (ix2 (0 : Fin 1) j)) + x7 (ix2 (0 : Fin 1) u) := by
  show shapeCast ⟨2, ![R, 1]⟩ _ hcr (ix2 p u) + broadcastTo ⟨2, ![R, 1]⟩ (shapeCast ⟨2, ![1, 1]⟩ x7 hc7) hb7 (ix2 p u) = _
  rw [shapeCast_self x7 hc7, shapeCast_self x6 hc6, Cert.LibLayout3.shapeCast_a_a1_apply, Cert.LibLayout3.sum_ab_last,
    broadcastTo_1b_ab_apply]
  refine congrArg (· + x7 (ix2 (0 : Fin 1) u)) (Finset.sum_congr rfl fun j _ => ?_)
  show y (ix2 p j) * broadcastTo ⟨2, ![R, N]⟩ x6 hb6 (ix2 p j) = _
  rw [broadcastTo_1b_ab_apply]

/-- The vector unit's head on a block of rows is the head of the whole array at the block's rows, when the weight row
    is the weight column read as a row and the one-by-one bias is the one-entry bias vector. -/
theorem khead_rows {R R' N : ℕ} (y : (⟨2, ![R, N]⟩ : Shape).Idx → EReal) (Y : (⟨2, ![R', N]⟩ : Shape).Idx → EReal)
    (x6 : (⟨2, ![1, N]⟩ : Shape).Idx → EReal) (x7 : (⟨2, ![1, 1]⟩ : Shape).Idx → EReal)
    (wh : (⟨2, ![N, 1]⟩ : Shape).Idx → EReal) (bh : (⟨1, ![1]⟩ : Shape).Idx → EReal) (p : Fin R) (p' : Fin R')
    (hy : ∀ j : Fin N, y (ix2 p j) = Y (ix2 p' j))
    (h6 : ∀ (j : Fin N) (u : Fin 1), x6 (ix2 (0 : Fin 1) j) = wh (ix2 j u))
    (h7 : ∀ u : Fin 1, x7 (ix2 (0 : Fin 1) u) = bh (ix1 u)) (u : Fin 1) :
    (∑ j : Fin N, y (ix2 p j) * x6 (ix2 (0 : Fin 1) j)) + x7 (ix2 (0 : Fin 1) u) = headFn Y wh bh (ix2 p' u) := by
  rw [headFn_apply, h7 u]
  exact congrArg (· + bh (ix1 u)) (Finset.sum_congr rfl fun j _ => by rw [hy j, h6 j u])

/-- The head with the weight laid out as one row and the bias as a one-by-one array (what the vector unit is handed). -/
def headRowFn {R N : ℕ} (y : (⟨2, ![R, N]⟩ : Shape).Idx → EReal) (x6 : (⟨2, ![1, N]⟩ : Shape).Idx → EReal)
    (x7 : (⟨2, ![1, 1]⟩ : Shape).Idx → EReal) : (⟨2, ![R, 1]⟩ : Shape).Idx → EReal :=
  fun i => (∑ j : Fin N, y (ix2 (i 0) j) * x6 (ix2 (0 : Fin 1) j)) + x7 (ix2 (0 : Fin 1) (i 1))

theorem headRowFn_apply {R N : ℕ} (y : (⟨2, ![R, N]⟩ : Shape).Idx → EReal) (x6 : (⟨2, ![1, N]⟩ : Shape).Idx → EReal)
    (x7 : (⟨2, ![1, 1]⟩ : Shape).Idx → EReal) (p : Fin R) (u : Fin 1) :
    headRowFn y x6 x7 (ix2 p u) = (∑ j : Fin N, y (ix2 p j) * x6 (ix2 (0 : Fin 1) j)) + x7 (ix2 (0 : Fin 1) u) := rfl

/-- Row `p` of the head depends on row `p` of the features only. -/
theorem headRowFn_rows {R R' N : ℕ} (y : (⟨2, ![R, N]⟩ : Shape).Idx → EReal) (Y : (⟨2, ![R', N]⟩ : Shape).Idx → EReal)
    (x6 : (⟨2, ![1, N]⟩ : Shape).Idx → EReal) (x7 : (⟨2, ![1, 1]⟩ : Shape).Idx → EReal) (p : Fin R) (p' : Fin R')
    (hy : ∀ j : Fin N, y (ix2 p j) = Y (ix2 p' j)) (u : Fin 1) :
    headRowFn y x6 x7 (ix2 p u) = headRowFn Y x6 x7 (ix2 p' u) := by
  rw [headRowFn_apply, headRowFn_apply]
  exact congrArg (· + x7 (ix2 (0 : Fin 1) u)) (Finset.sum_congr rfl fun j _ => by rw [hy j])

/-- With the weight row the weight column read as a row, and the one-by-one bias the one-entry bias vector, the two
    forms of the head are one function. -/
theorem headRowFn_eq {R N : ℕ} (Y : (⟨2, ![R, N]⟩ : Shape).Idx → EReal)
    (x6 : (⟨2, ![1, N]⟩ : Shape).Idx → EReal) (x7 : (⟨2, ![1, 1]⟩ : Shape).Idx → EReal)
    (wh : (⟨2, ![N, 1]⟩ : Shape).Idx → EReal) (bh : (⟨1, ![1]⟩ : Shape).Idx → EReal)
    (h6 : ∀ (j : Fin N) (u : Fin 1), x6 (ix2 (0 : Fin 1) j) = wh (ix2 j u))
    (h7 : ∀ u : Fin 1, x7 (ix2 (0 : Fin 1) u) = bh (ix1 u)) : headRowFn Y x6 x7 = headFn Y wh bh := by
  funext i
  obtain ⟨p, u, rfl⟩ : ∃ (p : Fin R) (u : Fin 1), i = ix2 p u := ⟨i 0, i 1, eq_ix2 i⟩
  exact khead_rows Y Y x6 x7 wh bh p p (fun _ => rfl) h6 h7 u

/-- On the host: `dot_general` with the weight column plus the bias broadcast to one row and over the rows. -/
theorem hhead_eq {R N : ℕ} (y : FVec Ideal ⟨2, ![R, N]⟩ .f32) (wh : FVec Ideal ⟨2, ![N, 1]⟩ .f32)
    (bh : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![R, 1]⟩ ![0, 1]) :
    addf (Host.dotGeneral (DotDims.plain R N 1) none y wh)
        (broadcastInDim ⟨2, ![R, 1]⟩ ![0, 1] h2 (broadcastInDim ⟨2, ![1, 1]⟩ ![1] h1 bh))
      = headFn y wh bh :=
  Cert.PlainDot.hlayer R N 1 none y wh bh h1 h2

/-- A block of rows of the layer, from blocks of rows of the three tall operands: at the block's index `j` the layer of
    the blocks is the layer of the whole arrays at the index `i` that is `j` moved down by `off` rows. -/
theorem layer_block {R R' K N : ℕ} (x0 : (⟨2, ![R, K]⟩ : Shape).Idx → EReal) (x1 : (⟨2, ![R, 1]⟩ : Shape).Idx → EReal)
    (x2 : (⟨2, ![R, K]⟩ : Shape).Idx → EReal) (A0 : (⟨2, ![R', K]⟩ : Shape).Idx → EReal)
    (A1 : (⟨2, ![R', 1]⟩ : Shape).Idx → EReal) (A2 : (⟨2, ![R', K]⟩ : Shape).Idx → EReal)
    (wl wr : (⟨2, ![K, N]⟩ : Shape).Idx → EReal) (b : (⟨1, ![N]⟩ : Shape).Idx → EReal) (off : ℕ)
    (j : (⟨2, ![R, N]⟩ : Shape).Idx) (i : (⟨2, ![R', N]⟩ : Shape).Idx)
    (hi0 : (i 0).val = off + (j 0).val) (hi1 : (i 1).val = (j 1).val)
    (h0 : ∀ (y : (⟨2, ![R, K]⟩ : Shape).Idx) (z : (⟨2, ![R', K]⟩ : Shape).Idx),
      (z 0).val = off + (y 0).val → (z 1).val = (y 1).val → x0 y = A0 z)
    (h1 : ∀ (y : (⟨2, ![R, 1]⟩ : Shape).Idx) (z : (⟨2, ![R', 1]⟩ : Shape).Idx),
      (z 0).val = off + (y 0).val → (z 1).val = (y 1).val → x1 y = A1 z)
    (h2 : ∀ (y : (⟨2, ![R, K]⟩ : Shape).Idx) (z : (⟨2, ![R', K]⟩ : Shape).Idx),
      (z 0).val = off + (y 0).val → (z 1).val = (y 1).val → x2 y = A2 z) :
    layerFn x0 x1 x2 wl wr b j = layerFn A0 A1 A2 wl wr b i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact layerFn_rows x0 x1 x2 A0 A1 A2 wl wr b p p' (fun k => h0 (ix2 p k) (ix2 p' k) hi0 rfl)
    (h1 (ix2 p 0) (ix2 p' 0) hi0 rfl) (fun k => h2 (ix2 p k) (ix2 p' k) hi0 rfl) c'

/-- A block of rows of the head of the layer, from blocks of rows of the layer's three tall operands. -/
theorem head_block {R R' K N : ℕ} (x0 : (⟨2, ![R, K]⟩ : Shape).Idx → EReal) (x1 : (⟨2, ![R, 1]⟩ : Shape).Idx → EReal)
    (x2 : (⟨2, ![R, K]⟩ : Shape).Idx → EReal) (A0 : (⟨2, ![R', K]⟩ : Shape).Idx → EReal)
    (A1 : (⟨2, ![R', 1]⟩ : Shape).Idx → EReal) (A2 : (⟨2, ![R', K]⟩ : Shape).Idx → EReal)
    (wl wr : (⟨2, ![K, N]⟩ : Shape).Idx → EReal) (b : (⟨1, ![N]⟩ : Shape).Idx → EReal)
    (x6 : (⟨2, ![1, N]⟩ : Shape).Idx → EReal) (x7 : (⟨2, ![1, 1]⟩ : Shape).Idx → EReal) (off : ℕ)
    (j : (⟨2, ![R, 1]⟩ : Shape).Idx) (i : (⟨2, ![R', 1]⟩ : Shape).Idx)
    (hi0 : (i 0).val = off + (j 0).val) (hi1 : (i 1).val = (j 1).val)
    (h0 : ∀ (y : (⟨2, ![R, K]⟩ : Shape).Idx) (z : (⟨2, ![R', K]⟩ : Shape).Idx),
      (z 0).val = off + (y 0).val → (z 1).val = (y 1).val → x0 y = A0 z)
    (h1 : ∀ (y : (⟨2, ![R, 1]⟩ : Shape).Idx) (z : (⟨2, ![R', 1]⟩ : Shape).Idx),
      (z 0).val = off + (y 0).val → (z 1).val = (y 1).val → x1 y = A1 z)
    (h2 : ∀ (y : (⟨2, ![R, K]⟩ : Shape).Idx) (z : (⟨2, ![R', K]⟩ : Shape).Idx),
      (z 0).val = off + (y 0).val → (z 1).val = (y 1).val → x2 y = A2 z) :
    headRowFn (layerFn x0 x1 x2 wl wr b) x6 x7 j = headRowFn (layerFn A0 A1 A2 wl wr b) x6 x7 i := by
  obtain ⟨p, u, rfl⟩ : ∃ (p : Fin R) (u : Fin 1), j = ix2 p u := ⟨j 0, j 1, eq_ix2 j⟩
  obtain ⟨p', u', rfl⟩ : ∃ (p' : Fin R') (u' : Fin 1), i = ix2 p' u' := ⟨i 0, i 1, eq_ix2 i⟩
  obtain rfl : u' = u := Fin.ext hi1
  exact headRowFn_rows _ _ x6 x7 p p' (fun c =>
    layerFn_rows x0 x1 x2 A0 A1 A2 wl wr b p p' (fun k => h0 (ix2 p k) (ix2 p' k) hi0 rfl)
      (h1 (ix2 p 0) (ix2 p' 0) hi0 rfl) (fun k => h2 (ix2 p k) (ix2 p' k) hi0 rfl) c) u'

end Cert.Sage

end
-- ==== Proof.Region0.lean ====
/-
  GRID 0: THE LAYER COMPUTED BLOCK OF ROWS BY BLOCK OF ROWS IS THE LAYER OF THE WHOLE ARRAYS.

  The grid has 25 points; point `t` works on rows `2000·t … 2000·t + 1999` of the summed messages, of the inverse-degree
  column and of the features, with the two weight matrices and the bias row whole at every point, and writes the same
  rows of the output.  The body's stored value is the layer of its loaded blocks (the layer's vector-unit spelling); a row
  of the layer depends only on the same row of the three tall operands; and the 25 blocks of rows tile the 50000 rows.  So
  the output array ends holding the layer of the whole arrays as the grid found them, whatever those contents are.
-/
import proofs.«131212_j63625645523668_1_alg».proof.Proof.Gen.KernelIdeal.Frame
import proofs.«131212_j63625645523668_1_alg».proof.Proof.LibSageHead

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Sage Cert.RowBias

variable (V : (c : Dev nD) → (b : Ref sig .tc) → Buf (Elt Ideal) ((c : Thread nD τ).loc b))

theorem hz : (![0, 0] : Fin 2 → Nat) = fun _ => 0 := funext fun a => by fin_cases a <;> rfl

/-- What the body stores is the layer of the blocks it loaded. -/
theorem pay_eq (x0 : Vec Ideal S2000x128 .f32) (x1 : Vec Ideal S2000x1 .f32) (x2 : Vec Ideal S2000x128 .f32)
    (x3 x4 : Vec Ideal S128x128 .f32) (x5 : Vec Ideal S1x128 .f32) :
    k0_pay1 (F := Ideal) x0 x1 x2 x3 x4 x5 = layerFn x0 x1 x2 x3 x4 (unrow x5) :=
  klayer_eq (R := 2000) (K := 128) (N := 128) x0 x1 x2 x3 x4 x5
    shapeCasts_S2000x128_S2000x128 shapeCasts_S2000x1_S2000x1 broadcasts_S2000x1_S2000x128 shapeCasts_S1x128_S1x128
    broadcasts_S1x128_S2000x128 bitsLt_bf16_f32

/-- The printed index maps, decided over the 25 points: the three tall windows and the output move down one block of
    rows per point; the weights and the bias stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The whole-array layer of the contents the grid finds. -/
def G (c : Dev nD) : S50000x128.Idx → EReal :=
  layerFn (V c main_v25 : S50000x128.Idx → EReal) (V c main_v15 : S50000x1.Idx → EReal)
    (V c main_arg0 : S50000x128.Idx → EReal) (V c main_arg2 : S128x128.Idx → EReal) (V c main_arg3 : S128x128.Idx → EReal)
    (unrow (V c main_v26 : S1x128.Idx → EReal))

/-- A tall window's block at point `t` reads the array `2000·t` rows down. -/
theorem tall_block (c : Dev nD) (t : Fin cfg0.N) :
    (∀ (y : S2000x128.Idx) (z : S50000x128.Idx), (z 0).val = t.val * 2000 + (y 0).val → (z 1).val = (y 1).val →
      iblk0 V c 0 t y = (V c main_v25 : S50000x128.Idx → EReal) z)
    ∧ (∀ (y : S2000x1.Idx) (z : S50000x1.Idx), (z 0).val = t.val * 2000 + (y 0).val → (z 1).val = (y 1).val →
      iblk0 V c 1 t y = (V c main_v15 : S50000x1.Idx → EReal) z)
    ∧ (∀ (y : S2000x128.Idx) (z : S50000x128.Idx), (z 0).val = t.val * 2000 + (y 0).val → (z 1).val = (y 1).val →
      iblk0 V c 2 t y = (V c main_arg0 : S50000x128.Idx → EReal) z) := by
  obtain ⟨e00, e01, e10, e11, e20, e21, -⟩ := idx_facts t
  refine ⟨fun y z h0 h1 => ?_, fun y z h0 h1 => ?_, fun y z h0 h1 => ?_⟩
  · show (V c main_v25 : S50000x128.Idx → EReal) (((cfg0.win 0).blk t).view.emb y) = _
    refine congrArg _ (funext fun a => Fin.ext ?_)
    match a with
    | ⟨0, _⟩ => show win0_0.index t (0 : Fin 2) * 2000 + 1 * (y 0).val = (z 0).val; omega
    | ⟨1, _⟩ => show win0_0.index t (1 : Fin 2) * 128 + 1 * (y 1).val = (z 1).val; omega
  · show (V c main_v15 : S50000x1.Idx → EReal) (((cfg0.win 1).blk t).view.emb y) = _
    refine congrArg _ (funext fun a => Fin.ext ?_)
    match a with
    | ⟨0, _⟩ => show win0_1.index t (0 : Fin 2) * 2000 + 1 * (y 0).val = (z 0).val; omega
    | ⟨1, _⟩ => show win0_1.index t (1 : Fin 2) * 1 + 1 * (y 1).val = (z 1).val; omega
  · show (V c main_arg0 : S50000x128.Idx → EReal) (((cfg0.win 2).blk t).view.emb y) = _
    refine congrArg _ (funext fun a => Fin.ext ?_)
    match a with
    | ⟨0, _⟩ => show win0_2.index t (0 : Fin 2) * 2000 + 1 * (y 0).val = (z 0).val; omega
    | ⟨1, _⟩ => show win0_2.index t (1 : Fin 2) * 128 + 1 * (y 1).val = (z 1).val; omega

/-- The weights' and the bias's blocks are the whole arrays at every point. -/
theorem whole_block (c : Dev nD) (t : Fin cfg0.N) :
    (iblk0 V c 3 t : S128x128.Idx → EReal) = (V c main_arg2 : S128x128.Idx → EReal)
    ∧ (iblk0 V c 4 t : S128x128.Idx → EReal) = (V c main_arg3 : S128x128.Idx → EReal)
    ∧ (iblk0 V c 5 t : S1x128.Idx → EReal) = (V c main_v26 : S1x128.Idx → EReal) := by
  obtain ⟨-, -, -, -, -, -, e30, e31, e40, e41, e50, e51, -⟩ := idx_facts t
  refine ⟨funext fun y => ?_, funext fun y => ?_, funext fun y => ?_⟩
  · show (V c main_arg2 : S128x128.Idx → EReal) (((cfg0.win 3).blk t).view.emb y) = _
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · show (V c main_arg3 : S128x128.Idx → EReal) (((cfg0.win 4).blk t).view.emb y) = _
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · show (V c main_v26 : S1x128.Idx → EReal) (((cfg0.win 5).blk t).view.emb y) = _
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- WHAT POINT `t` WRITES BACK is block `t` of the whole-array layer. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x128) hz, View.ld_unit_zero (S := S1x128) hz]
  rw [pay_eq]
  obtain ⟨hw3, hw4, hw5⟩ := whole_block V c t
  obtain ⟨hb0, hb1, hb2⟩ := tall_block V c t
  obtain ⟨-, -, -, -, -, -, -, -, -, -, -, -, e60, e61⟩ := idx_facts t
  funext j
  show layerFn (iblk0 V c 0 t) (iblk0 V c 1 t) (iblk0 V c 2 t) (iblk0 V c 3 t) (iblk0 V c 4 t) (unrow (iblk0 V c 5 t)) j
    = G V c (((cfg0.win 6).blk t).view.emb j)
  rw [hw3, hw4, hw5]
  unfold G
  refine layer_block _ _ _ _ _ _ _ _ _ (t.val * 2000) j _ ?_ ?_ hb0 hb1 hb2
  · show win0_6.index t (0 : Fin 2) * 2000 + 1 * (j 0).val = t.val * 2000 + (j 0).val; omega
  · show win0_6.index t (1 : Fin 2) * 128 + 1 * (j 1).val = (j 1).val; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v27).slice (win0_6.rect t)).set ↔ _
  rw [View.set_slice_whole, Rect.mem_set_unit]
  exact Iff.rfl

/-- Row `r` is in the block of point `r / 2000`: the 25 blocks of rows tile the array. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, -, -, -, -, e60, e61⟩ := idx_facts t
  have ht : t.val = (i 0).val / 2000 := rfl
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- THE OUTPUT ARRAY after the grid: the layer of the whole arrays as the grid found them. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  GRID 1: THE LAYER COMPUTED BLOCK OF ROWS BY BLOCK OF ROWS IS THE LAYER OF THE WHOLE ARRAYS.

  The grid has 25 points; point `t` works on rows `2000·t … 2000·t + 1999` of the summed messages, of the inverse-degree
  column and of the features, with the two weight matrices and the bias row whole at every point, and writes the same
  rows of the output.  The body's stored value is the layer of its loaded blocks (the layer's vector-unit spelling); a row
  of the layer depends only on the same row of the three tall operands; and the 25 blocks of rows tile the 50000 rows.  So
  the output array ends holding the layer of the whole arrays as the grid found them, whatever those contents are.
-/
import proofs.«131212_j63625645523668_1_alg».proof.Proof.Gen.KernelIdeal.Frame
import proofs.«131212_j63625645523668_1_alg».proof.Proof.LibSageHead

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Sage Cert.RowBias

variable (V : (c : Dev nD) → (b : Ref sig .tc) → Buf (Elt Ideal) ((c : Thread nD τ).loc b))

theorem hz : (![0, 0] : Fin 2 → Nat) = fun _ => 0 := funext fun a => by fin_cases a <;> rfl

/-- What the body stores is the layer of the blocks it loaded. -/
theorem pay_eq (x0 : Vec Ideal S2000x128 .f32) (x1 : Vec Ideal S2000x1 .f32) (x2 : Vec Ideal S2000x128 .f32)
    (x3 x4 : Vec Ideal S128x128 .f32) (x5 : Vec Ideal S1x128 .f32) :
    k1_pay1 (F := Ideal) x0 x1 x2 x3 x4 x5 = layerFn x0 x1 x2 x3 x4 (unrow x5) :=
  (klayer_eq (R := 2000) (K := 128) (N := 128) x0 x1 (shapeCast S2000x128 x2 shapeCasts_S2000x128_S2000x128) x3 x4 x5
    shapeCasts_S2000x128_S2000x128 shapeCasts_S2000x1_S2000x1 broadcasts_S2000x1_S2000x128 shapeCasts_S1x128_S1x128
    broadcasts_S1x128_S2000x128 bitsLt_bf16_f32).trans (by rw [shapeCast_self])

/-- The printed index maps, decided over the 25 points: the three tall windows and the output move down one block of
    rows per point; the weights and the bias stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The whole-array layer of the contents the grid finds. -/
def G (c : Dev nD) : S50000x128.Idx → EReal :=
  layerFn (V c main_v37 : S50000x128.Idx → EReal) (V c main_v15 : S50000x1.Idx → EReal)
    (V c main_v27 : S50000x128.Idx → EReal) (V c main_arg5 : S128x128.Idx → EReal) (V c main_arg6 : S128x128.Idx → EReal)
    (unrow (V c main_v38 : S1x128.Idx → EReal))

/-- A tall window's block at point `t` reads the array `2000·t` rows down. -/
theorem tall_block (c : Dev nD) (t : Fin cfg1.N) :
    (∀ (y : S2000x128.Idx) (z : S50000x128.Idx), (z 0).val = t.val * 2000 + (y 0).val → (z 1).val = (y 1).val →
      iblk1 V c 0 t y = (V c main_v37 : S50000x128.Idx → EReal) z)
    ∧ (∀ (y : S2000x1.Idx) (z : S50000x1.Idx), (z 0).val = t.val * 2000 + (y 0).val → (z 1).val = (y 1).val →
      iblk1 V c 1 t y = (V c main_v15 : S50000x1.Idx → EReal) z)
    ∧ (∀ (y : S2000x128.Idx) (z : S50000x128.Idx), (z 0).val = t.val * 2000 + (y 0).val → (z 1).val = (y 1).val →
      iblk1 V c 2 t y = (V c main_v27 : S50000x128.Idx → EReal) z) := by
  obtain ⟨e00, e01, e10, e11, e20, e21, -⟩ := idx_facts t
  refine ⟨fun y z h0 h1 => ?_, fun y z h0 h1 => ?_, fun y z h0 h1 => ?_⟩
  · show (V c main_v37 : S50000x128.Idx → EReal) (((cfg1.win 0).blk t).view.emb y) = _
    refine congrArg _ (funext fun a => Fin.ext ?_)
    match a with
    | ⟨0, _⟩ => show win1_0.index t (0 : Fin 2) * 2000 + 1 * (y 0).val = (z 0).val; omega
    | ⟨1, _⟩ => show win1_0.index t (1 : Fin 2) * 128 + 1 * (y 1).val = (z 1).val; omega
  · show (V c main_v15 : S50000x1.Idx → EReal) (((cfg1.win 1).blk t).view.emb y) = _
    refine congrArg _ (funext fun a => Fin.ext ?_)
    match a with
    | ⟨0, _⟩ => show win1_1.index t (0 : Fin 2) * 2000 + 1 * (y 0).val = (z 0).val; omega
    | ⟨1, _⟩ => show win1_1.index t (1 : Fin 2) * 1 + 1 * (y 1).val = (z 1).val; omega
  · show (V c main_v27 : S50000x128.Idx → EReal) (((cfg1.win 2).blk t).view.emb y) = _
    refine congrArg _ (funext fun a => Fin.ext ?_)
    match a with
    | ⟨0, _⟩ => show win1_2.index t (0 : Fin 2) * 2000 + 1 * (y 0).val = (z 0).val; omega
    | ⟨1, _⟩ => show win1_2.index t (1 : Fin 2) * 128 + 1 * (y 1).val = (z 1).val; omega

/-- The weights' and the bias's blocks are the whole arrays at every point. -/
theorem whole_block (c : Dev nD) (t : Fin cfg1.N) :
    (iblk1 V c 3 t : S128x128.Idx → EReal) = (V c main_arg5 : S128x128.Idx → EReal)
    ∧ (iblk1 V c 4 t : S128x128.Idx → EReal) = (V c main_arg6 : S128x128.Idx → EReal)
    ∧ (iblk1 V c 5 t : S1x128.Idx → EReal) = (V c main_v38 : S1x128.Idx → EReal) := by
  obtain ⟨-, -, -, -, -, -, e30, e31, e40, e41, e50, e51, -⟩ := idx_facts t
  refine ⟨funext fun y => ?_, funext fun y => ?_, funext fun y => ?_⟩
  · show (V c main_arg5 : S128x128.Idx → EReal) (((cfg1.win 3).blk t).view.emb y) = _
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · show (V c main_arg6 : S128x128.Idx → EReal) (((cfg1.win 4).blk t).view.emb y) = _
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · show (V c main_v38 : S1x128.Idx → EReal) (((cfg1.win 5).blk t).view.emb y) = _
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- WHAT POINT `t` WRITES BACK is block `t` of the whole-array layer. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz,
    View.ld_unit_zero (S := S128x128) hz, View.ld_unit_zero (S := S1x128) hz]
  rw [pay_eq]
  obtain ⟨hw3, hw4, hw5⟩ := whole_block V c t
  obtain ⟨hb0, hb1, hb2⟩ := tall_block V c t
  obtain ⟨-, -, -, -, -, -, -, -, -, -, -, -, e60, e61⟩ := idx_facts t
  funext j
  show layerFn (iblk1 V c 0 t) (iblk1 V c 1 t) (iblk1 V c 2 t) (iblk1 V c 3 t) (iblk1 V c 4 t) (unrow (iblk1 V c 5 t)) j
    = G V c (((cfg1.win 6).blk t).view.emb j)
  rw [hw3, hw4, hw5]
  unfold G
  refine layer_block _ _ _ _ _ _ _ _ _ (t.val * 2000) j _ ?_ ?_ hb0 hb1 hb2
  · show win1_6.index t (0 : Fin 2) * 2000 + 1 * (j 0).val = t.val * 2000 + (j 0).val; omega
  · show win1_6.index t (1 : Fin 2) * 128 + 1 * (j 1).val = (j 1).val; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v39).slice (win1_6.rect t)).set ↔ _
  rw [View.set_slice_whole, Rect.mem_set_unit]
  exact Iff.rfl

/-- Row `r` is in the block of point `r / 2000`: the 25 blocks of rows tile the array. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, -, -, e60, e61⟩ := idx_facts t
  have ht : t.val = (i 0).val / 2000 := rfl
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- THE OUTPUT ARRAY after the grid: the layer of the whole arrays as the grid found them. -/
theorem final (c : Dev nD) : (dat1 V c).arrAt 6 cfg1.N = G V c :=
  (dat1 V c).arrAt_eq_of_cover 6 (G V c) (fun t _ => flushed_eq V c t) cover

end Cert.KernelIdeal.Region1

end
-- ==== Proof.Region2.lean ====
/-
  GRID 2: THE LAST LAYER AND THE HEAD, BLOCK OF ROWS BY BLOCK OF ROWS, ARE THOSE OF THE WHOLE ARRAYS.

  As in the first two grids, point `t` of 25 works on rows `2000·t … 2000·t + 1999`; here the body goes on from the
  layer's rows to the head: each row times the weight row, summed along the lanes, plus the bias, one number per row.
  The body's stored column is the head of the layer of its loaded blocks; a row of it depends only on the same row of the
  three tall operands; the 25 blocks tile the 50000 rows.  So the output column ends holding the head of the layer of the
  whole arrays as the grid found them.
-/
import proofs.«131212_j63625645523668_1_alg».proof.Proof.Gen.KernelIdeal.Frame
import proofs.«131212_j63625645523668_1_alg».proof.Proof.LibSageHead

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Sage Cert.RowBias

variable (V : (c : Dev nD) → (b : Ref sig .tc) → Buf (Elt Ideal) ((c : Thread nD τ).loc b))

theorem hz : (![0, 0] : Fin 2 → Nat) = fun _ => 0 := funext fun a => by fin_cases a <;> rfl

/-- The layer part of the body (the same operations as the second grid's body) is the layer of the loaded blocks. -/
theorem lay_eq (x0 : Vec Ideal S2000x128 .f32) (x1 : Vec Ideal S2000x1 .f32) (x2 : Vec Ideal S2000x128 .f32)
    (x3 x4 : Vec Ideal S128x128 .f32) (x5 : Vec Ideal S1x128 .f32) :
    k1_pay1 (F := Ideal) x0 x1 x2 x3 x4 x5 = layerFn x0 x1 x2 x3 x4 (unrow x5) :=
  (klayer_eq (R := 2000) (K := 128) (N := 128) x0 x1 (shapeCast S2000x128 x2 shapeCasts_S2000x128_S2000x128) x3 x4 x5
    shapeCasts_S2000x128_S2000x128 shapeCasts_S2000x1_S2000x1 broadcasts_S2000x1_S2000x128 shapeCasts_S1x128_S1x128
    broadcasts_S1x128_S2000x128 bitsLt_bf16_f32).trans (by rw [shapeCast_self])

/-- What the body stores is the head of the layer of the blocks it loaded. -/
theorem pay_eq (x0 : Vec Ideal S2000x128 .f32) (x1 : Vec Ideal S2000x1 .f32) (x2 : Vec Ideal S2000x128 .f32)
    (x3 x4 : Vec Ideal S128x128 .f32) (x5 x6 : Vec Ideal S1x128 .f32) (x7 : Vec Ideal S1x1 .f32) :
    k2_pay1 (F := Ideal) x0 x1 x2 x3 x4 x5 x6 x7 = headRowFn (layerFn x0 x1 x2 x3 x4 (unrow x5)) x6 x7 := by
  funext i
  obtain ⟨p, u, rfl⟩ : ∃ (p : Fin 2000) (u : Fin 1), i = ix2 p u := ⟨i 0, i 1, eq_ix2 i⟩
  rw [headRowFn_apply, ← lay_eq x0 x1 x2 x3 x4 x5]
  exact khead_apply (R := 2000) (N := 128) (k1_pay1 (F := Ideal) x0 x1 x2 x3 x4 x5) x6 x7
    shapeCasts_S1x128_S1x128 broadcasts_S1x128_S2000x128 reduces_S2000x128_S2000 rfl shapeCasts_S2000_S2000x1
    shapeCasts_S1x1_S1x1 broadcasts_S1x1_S2000x1 p u

/-- The printed index maps, decided over the 25 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The whole-array head of the layer of the contents the grid finds. -/
def G (c : Dev nD) : S50000x1.Idx → EReal :=
  headRowFn
    (layerFn (V c main_v49 : S50000x128.Idx → EReal) (V c main_v15 : S50000x1.Idx → EReal)
      (V c main_v39 : S50000x128.Idx → EReal) (V c main_arg8 : S128x128.Idx → EReal) (V c main_arg9 : S128x128.Idx → EReal)
      (unrow (V c main_v50 : S1x128.Idx → EReal)))
    (V c main_v51 : S1x128.Idx → EReal) (V c main_v52 : S1x1.Idx → EReal)

/-- A tall window's block at point `t` reads the array `2000·t` rows down. -/
theorem tall_block (c : Dev nD) (t : Fin cfg2.N) :
    (∀ (y : S2000x128.Idx) (z : S50000x128.Idx), (z 0).val = t.val * 2000 + (y 0).val → (z 1).val = (y 1).val →
      iblk2 V c 0 t y = (V c main_v49 : S50000x128.Idx → EReal) z)
    ∧ (∀ (y : S2000x1.Idx) (z : S50000x1.Idx), (z 0).val = t.val * 2000 + (y 0).val → (z 1).val = (y 1).val →
      iblk2 V c 1 t y = (V c main_v15 : S50000x1.Idx → EReal) z)
    ∧ (∀ (y : S2000x128.Idx) (z : S50000x128.Idx), (z 0).val = t.val * 2000 + (y 0).val → (z 1).val = (y 1).val →
      iblk2 V c 2 t y = (V c main_v39 : S50000x128.Idx → EReal) z) := by
  obtain ⟨e00, e01, e10, e11, e20, e21, -⟩ := idx_facts t
  refine ⟨fun y z h0 h1 => ?_, fun y z h0 h1 => ?_, fun y z h0 h1 => ?_⟩
  · show (V c main_v49 : S50000x128.Idx → EReal) (((cfg2.win 0).blk t).view.emb y) = _
    refine congrArg _ (funext fun a => Fin.ext ?_)
    match a with
    | ⟨0, _⟩ => show win2_0.index t (0 : Fin 2) * 2000 + 1 * (y 0).val = (z 0).val; omega
    | ⟨1, _⟩ => show win2_0.index t (1 : Fin 2) * 128 + 1 * (y 1).val = (z 1).val; omega
  · show (V c main_v15 : S50000x1.Idx → EReal) (((cfg2.win 1).blk t).view.emb y) = _
    refine congrArg _ (funext fun a => Fin.ext ?_)
    match a with
    | ⟨0, _⟩ => show win2_1.index t (0 : Fin 2) * 2000 + 1 * (y 0).val = (z 0).val; omega
    | ⟨1, _⟩ => show win2_1.index t (1 : Fin 2) * 1 + 1 * (y 1).val = (z 1).val; omega
  · show (V c main_v39 : S50000x128.Idx → EReal) (((cfg2.win 2).blk t).view.emb y) = _
    refine congrArg _ (funext fun a => Fin.ext ?_)
    match a with
    | ⟨0, _⟩ => show win2_2.index t (0 : Fin 2) * 2000 + 1 * (y 0).val = (z 0).val; omega
    | ⟨1, _⟩ => show win2_2.index t (1 : Fin 2) * 128 + 1 * (y 1).val = (z 1).val; omega

/-- The weights', the biases' and the head's blocks are the whole arrays at every point. -/
theorem whole_block (c : Dev nD) (t : Fin cfg2.N) :
    (iblk2 V c 3 t : S128x128.Idx → EReal) = (V c main_arg8 : S128x128.Idx → EReal)
    ∧ (iblk2 V c 4 t : S128x128.Idx → EReal) = (V c main_arg9 : S128x128.Idx → EReal)
    ∧ (iblk2 V c 5 t : S1x128.Idx → EReal) = (V c main_v50 : S1x128.Idx → EReal)
    ∧ (iblk2 V c 6 t : S1x128.Idx → EReal) = (V c main_v51 : S1x128.Idx → EReal)
    ∧ (iblk2 V c 7 t : S1x1.Idx → EReal) = (V c main_v52 : S1x1.Idx → EReal) := by
  obtain ⟨-, -, -, -, -, -, e30, e31, e40, e41, e50, e51, e60, e61, e70, e71, -⟩ := idx_facts t
  refine ⟨funext fun y => ?_, funext fun y => ?_, funext fun y => ?_, funext fun y => ?_, funext fun y => ?_⟩
  · show (V c main_arg8 : S128x128.Idx → EReal) (((cfg2.win 3).blk t).view.emb y) = _
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · show (V c main_arg9 : S128x128.Idx → EReal) (((cfg2.win 4).blk t).view.emb y) = _
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · show (V c main_v50 : S1x128.Idx → EReal) (((cfg2.win 5).blk t).view.emb y) = _
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  · show (V c main_v51 : S1x128.Idx → EReal) (((cfg2.win 6).blk t).view.emb y) = _
    refine congrArg _ (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega
  · show (V c main_v52 : S1x1.Idx → EReal) (((cfg2.win 7).blk t).view.emb y) = _
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 1 + 1 * (y 1).val = (y 1).val; omega

/-- WHAT POINT `t` WRITES BACK is block `t` of the whole-array head of the layer. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz]
  simp only [View.ld_unit_zero (S := S2000x128) hz, View.ld_unit_zero (S := S2000x1) hz,
    View.ld_unit_zero (S := S128x128) hz, View.ld_unit_zero (S := S1x128) hz, View.ld_unit_zero (S := S1x1) hz]
  rw [pay_eq]
  obtain ⟨hw3, hw4, hw5, hw6, hw7⟩ := whole_block V c t
  obtain ⟨hb0, hb1, hb2⟩ := tall_block V c t
  obtain ⟨-, -, -, -, -, -, -, -, -, -, -, -, -, -, -, -, e80, e81⟩ := idx_facts t
  funext j
  show headRowFn (layerFn (iblk2 V c 0 t) (iblk2 V c 1 t) (iblk2 V c 2 t) (iblk2 V c 3 t) (iblk2 V c 4 t) (unrow (iblk2 V c 5 t)))
      (iblk2 V c 6 t) (iblk2 V c 7 t) j
    = G V c (((cfg2.win 8).blk t).view.emb j)
  rw [hw3, hw4, hw5, hw6, hw7]
  unfold G
  refine head_block _ _ _ _ _ _ _ _ _ _ _ (t.val * 2000) j _ ?_ ?_ hb0 hb1 hb2
  · show win2_8.index t (0 : Fin 2) * 2000 + 1 * (j 0).val = t.val * 2000 + (j 0).val; omega
  · show win2_8.index t (1 : Fin 2) * 1 + 1 * (j 1).val = (j 1).val; omega

/-- An index of the output column is in point `t`'s block iff each coordinate is in the block's range on its axis. -/
theorem mem_blk (t : Fin cfg2.N) (i : S50000x1.Idx) :
    i ∈ ((cfg2.win 8).blk t).view.set ↔ ∀ a : Fin 2, win2_8.index t a * S2000x1.size a ≤ (i a).val
      ∧ (i a).val < win2_8.index t a * S2000x1.size a + S2000x1.size a := by
  show i ∈ ((View.whole main_v53).slice (win2_8.rect t)).set ↔ _
  rw [View.set_slice_whole, Rect.mem_set_unit]
  exact Iff.rfl

/-- Row `r` is in the block of point `r / 2000`: the 25 blocks of rows tile the column. -/
theorem cover (i : S50000x1.Idx) :
    ∃ t : Fin cfg2.N, (cfg2.win 8).flush t = true ∧ i ∈ ((cfg2.win 8).blk t).view.set := by
  have hi0 : (i 0).val < 50000 := (i 0).isLt
  have hi1 : (i 1).val < 1 := (i 1).isLt
  have hN : cfg2.N = 25 := N_2
  let t : Fin cfg2.N := ⟨(i 0).val / 2000, by rw [hN]; omega⟩
  obtain ⟨-, -, -, -, -, -, -, -, -, -, -, -, -, -, -, -, e80, e81⟩ := idx_facts t
  have ht : t.val = (i 0).val / 2000 := rfl
  refine ⟨t, flush2_8 t, ?_⟩
  rw [mem_blk]
  intro a
  match a with
  | ⟨0, _⟩ =>
    show win2_8.index t (0 : Fin 2) * 2000 ≤ (i 0).val ∧ (i 0).val < win2_8.index t (0 : Fin 2) * 2000 + 2000
    omega
  | ⟨1, _⟩ =>
    show win2_8.index t (1 : Fin 2) * 1 ≤ (i 1).val ∧ (i 1).val < win2_8.index t (1 : Fin 2) * 1 + 1
    omega

/-- THE OUTPUT COLUMN after the grid: the head of the layer of the whole arrays as the grid found them. -/
theorem final (c : Dev nD) : (dat2 V c).arrAt 8 cfg2.N = G V c :=
  (dat2 V c).arrAt_eq_of_cover 8 (G V c) (fun t _ => flushed_eq V c t) cover

end Cert.KernelIdeal.Region2

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.KHost.lean ====
/-
  THE IDEALIZED KERNEL'S RESULT AS ONE FUNCTION OF ITS ARGUMENTS.

  Between the three grids the host gathers the current features at the edges' sources and adds them up at the edges'
  destinations; before the first it also computes the inverse degrees and lays the biases, the head's weight and the
  head's bias out as one-row arrays; after the last it reads the column of logits as a vector.  Reading the buffer
  contents back from the last segment boundary to the launch — each grid's output array is the layer (or the head of the
  layer) of the contents it found, each stretch of host operations is its operations' composed term, and a buffer that a
  stretch or a grid does not write keeps its contents — the result buffer ends holding `netVal` of the arguments: three
  layers and the head, each over the summed messages of the layer before.
-/
import proofs.«131212_j63625645523668_1_alg».proof.Proof.Region0
import proofs.«131212_j63625645523668_1_alg».proof.Proof.Region1
import proofs.«131212_j63625645523668_1_alg».proof.Proof.Region2
import proofs.«131212_j63625645523668_1_alg».proof.Proof.LibTypedRef
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)
open Cert.Sage Cert.RowBias

/-- The contents of an `i32` array and of an `f32` array at the ideal values. -/
abbrev I32 (s : Shape) := (⟨s, .i32⟩ : BufTy).Contents (Elt Ideal)
abbrev F32 (s : Shape) := FVec Ideal s .f32

/-- The edges' source nodes: row 0 of the edge array. -/
def srcRaw (e : I32 S2x800000) : I32 S800000 :=
  shapeCast _ (extractStridedSlice S1x800000 ![0, 0] e slices_S2x800000_S1x800000_0_0) shapeCasts_S1x800000_S800000

/-- The edges' destination nodes: row 1 of the edge array. -/
def dstRaw (e : I32 S2x800000) : I32 S800000 :=
  shapeCast _ (extractStridedSlice S1x800000 ![1, 0] e slices_S2x800000_S1x800000_1_0) shapeCasts_S1x800000_S800000

/-- The summed messages: the rows of `h` at the edges' sources (a negative index counted from the end), added into the
    rows of a zero array at the edges' destinations. -/
def aggOf (h : F32 S50000x128) (e : I32 S2x800000) : F32 S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstRaw e))
    (Host.gather gather_S50000x128_S800000x1_S800000x128_1_0_n_n_0_1_1128 h
      (broadcastInDim S800000x1 ![0] bcast_S800000_S800000x1_0
        (select (cmpi .slt (srcRaw e) (broadcastInDim S800000 ![] bcast_S_S800000 (constantI S_ 32 0#32)))
          (addi (srcRaw e) (broadcastInDim S800000 ![] bcast_S_S800000 (constantI S_ 32 50000#32))) (srcRaw e))))

/-- The in-degrees: a one added at each edge's destination. -/
def degOf (e : I32 S2x800000) : F32 S50000 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstRaw e))
    (broadcastInDim S800000 ![] bcast_S_S800000 (constant (F := Ideal) S_ .f32 0x3F800000#32))

/-- The inverse degrees: `1 / max deg 1` where the degree is positive, zero elsewhere. -/
def invVec (e : I32 S2x800000) : F32 S50000 :=
  select (cmpf (F := Ideal) .ogt (degOf e) (broadcastInDim S50000 ![] bcast_S_S50000 (constant (F := Ideal) S_ .f32 0x00000000#32)))
    (Host.divf (F := Ideal) (broadcastInDim S50000 ![] bcast_S_S50000 (constant (F := Ideal) S_ .f32 0x3F800000#32))
      (maximumf (F := Ideal) (degOf e) (broadcastInDim S50000 ![] bcast_S_S50000 (constant (F := Ideal) S_ .f32 0x3F800000#32))))
    (broadcastInDim S50000 ![] bcast_S_S50000 (id (constant (F := Ideal) S_ .f32 0x00000000#32)))

/-- One layer of the network on all the nodes. -/
def layerOf (h : F32 S50000x128) (e : I32 S2x800000) (wl wr : F32 S128x128) (b : F32 S128) : F32 S50000x128 :=
  layerFn (R := 50000) (K := 128) (N := 128) (aggOf h e) (col (invVec e)) h wl wr b

/-- THE NETWORK: three layers, the head, and the column of logits read as a vector. -/
def netVal (x : F32 S50000x128) (e : I32 S2x800000) (wl0 wr0 : F32 S128x128) (b0 : F32 S128)
    (wl1 wr1 : F32 S128x128) (b1 : F32 S128) (wl2 wr2 : F32 S128x128) (b2 : F32 S128)
    (wh : F32 S128x1) (bh : F32 S1) : F32 S50000 :=
  shapeCast S50000
    (headFn (R := 50000) (N := 128) (layerOf (layerOf (layerOf x e wl0 wr0 b0) e wl1 wr1 b1) e wl2 wr2 b2) wh bh)
    shapeCasts_S50000x1_S50000

/-- A buffer that no operation of a stretch writes keeps its contents over the stretch. -/
macro "keeps" ops:ident : tactic => `(tactic| exact StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

variable (m : (ℓ : Loc nD τ sig) → Buf (Elt Ideal) ℓ) (ρ : Dev nD → PrngReg)

/-! ## Over the first stretch (the edge rows, the degrees) -/

set_option maxHeartbeats 4000000 in
theorem W1_v1 (c : Dev nD) : W1 m ρ c (Proc.devRef .tc main_v1) = srcRaw (m ((c : Thread nD τ).loc main_arg1)) := by
  show StableHlo.after hostOps0 (W0 m ρ c) (Proc.devRef .tc main_v1) = _
  simp only [hostOps0]
  after_results <;> rfl
set_option maxHeartbeats 4000000 in
theorem W1_v3 (c : Dev nD) : W1 m ρ c (Proc.devRef .tc main_v3) = dstRaw (m ((c : Thread nD τ).loc main_arg1)) := by
  show StableHlo.after hostOps0 (W0 m ρ c) (Proc.devRef .tc main_v3) = _
  simp only [hostOps0]
  after_results <;> rfl
set_option maxHeartbeats 4000000 in
theorem W1_v9 (c : Dev nD) : W1 m ρ c (Proc.devRef .tc main_v9) = cmpf (F := Ideal) .ogt (degOf (m ((c : Thread nD τ).loc main_arg1))) (broadcastInDim S50000 ![] bcast_S_S50000 (constant (F := Ideal) S_ .f32 0x00000000#32)) := by
  show StableHlo.after hostOps0 (W0 m ρ c) (Proc.devRef .tc main_v9) = _
  simp only [hostOps0]
  after_results <;> rfl
set_option maxHeartbeats 4000000 in
theorem W1_v13 (c : Dev nD) : W1 m ρ c (Proc.devRef .tc main_v13) = Host.divf (F := Ideal) (broadcastInDim S50000 ![] bcast_S_S50000 (constant (F := Ideal) S_ .f32 0x3F800000#32)) (maximumf (F := Ideal) (degOf (m ((c : Thread nD τ).loc main_arg1))) (broadcastInDim S50000 ![] bcast_S_S50000 (constant (F := Ideal) S_ .f32 0x3F800000#32))) := by
  show StableHlo.after hostOps0 (W0 m ρ c) (Proc.devRef .tc main_v13) = _
  simp only [hostOps0]
  after_results <;> rfl
set_option maxHeartbeats 4000000 in
theorem W1_cst4 (c : Dev nD) : W1 m ρ c (Proc.devRef .tc main_cst_4) = constant (F := Ideal) S_ .f32 0x00000000#32 := by
  show StableHlo.after hostOps0 (W0 m ρ c) (Proc.devRef .tc main_cst_4) = _
  simp only [hostOps0]
  after_results <;> rfl
theorem W1_arg0 (c : Dev nD) : W1 m ρ c (Proc.devRef .tc main_arg0) = (m ((c : Thread nD τ).loc main_arg0)) :=
  (show W1 m ρ c (Proc.devRef .tc main_arg0) = W0 m ρ c (Proc.devRef .tc main_arg0) by keeps hostOps0).trans rfl
theorem W1_arg2 (c : Dev nD) : W1 m ρ c (Proc.devRef .tc main_arg2) = (m ((c : Thread nD τ).loc main_arg2)) :=
  (show W1 m ρ c (Proc.devRef .tc main_arg2) = W0 m ρ c (Proc.devRef .tc main_arg2) by keeps hostOps0).trans rfl
theorem W1_arg3 (c : Dev nD) : W1 m ρ c (Proc.devRef .tc main_arg3) = (m ((c : Thread nD τ).loc main_arg3)) :=
  (show W1 m ρ c (Proc.devRef .tc main_arg3) = W0 m ρ c (Proc.devRef .tc main_arg3) by keeps hostOps0).trans rfl
theorem W1_arg4 (c : Dev nD) : W1 m ρ c (Proc.devRef .tc main_arg4) = (m ((c : Thread nD τ).loc main_arg4)) :=
  (show W1 m ρ c (Proc.devRef .tc main_arg4) = W0 m ρ c (Proc.devRef .tc main_arg4) by keeps hostOps0).trans rfl
theorem W1_arg5 (c : Dev nD) : W1 m ρ c (Proc.devRef .tc main_arg5) = (m ((c : Thread nD τ).loc main_arg5)) :=
  (show W1 m ρ c (Proc.devRef .tc main_arg5) = W0 m ρ c (Proc.devRef .tc main_arg5) by keeps hostOps0).trans rfl
theorem W1_arg6 (c : Dev nD) : W1 m ρ c (Proc.devRef .tc main_arg6) = (m ((c : Thread nD τ).loc main_arg6)) :=
  (show W1 m ρ c (Proc.devRef .tc main_arg6) = W0 m ρ c (Proc.devRef .tc main_arg6) by keeps hostOps0).trans rfl
theorem W1_arg7 (c : Dev nD) : W1 m ρ c (Proc.devRef .tc main_arg7) = (m ((c : Thread nD τ).loc main_arg7)) :=
  (show W1 m ρ c (Proc.devRef .tc main_arg7) = W0 m ρ c (Proc.devRef .tc main_arg7) by keeps hostOps0).trans rfl
theorem W1_arg8 (c : Dev nD) : W1 m ρ c (Proc.devRef .tc main_arg8) = (m ((c : Thread nD τ).loc main_arg8)) :=
  (show W1 m ρ c (Proc.devRef .tc main_arg8) = W0 m ρ c (Proc.devRef .tc main_arg8) by keeps hostOps0).trans rfl
theorem W1_arg9 (c : Dev nD) : W1 m ρ c (Proc.devRef .tc main_arg9) = (m ((c : Thread nD τ).loc main_arg9)) :=
  (show W1 m ρ c (Proc.devRef .tc main_arg9) = W0 m ρ c (Proc.devRef .tc main_arg9) by keeps hostOps0).trans rfl
theorem W1_arg10 (c : Dev nD) : W1 m ρ c (Proc.devRef .tc main_arg10) = (m ((c : Thread nD τ).loc main_arg10)) :=
  (show W1 m ρ c (Proc.devRef .tc main_arg10) = W0 m ρ c (Proc.devRef .tc main_arg10) by keeps hostOps0).trans rfl
theorem W1_arg11 (c : Dev nD) : W1 m ρ c (Proc.devRef .tc main_arg11) = (m ((c : Thread nD τ).loc main_arg11)) :=
  (show W1 m ρ c (Proc.devRef .tc main_arg11) = W0 m ρ c (Proc.devRef .tc main_arg11) by keeps hostOps0).trans rfl
theorem W1_arg12 (c : Dev nD) : W1 m ρ c (Proc.devRef .tc main_arg12) = (m ((c : Thread nD τ).loc main_arg12)) :=
  (show W1 m ρ c (Proc.devRef .tc main_arg12) = W0 m ρ c (Proc.devRef .tc main_arg12) by keeps hostOps0).trans rfl

/-! ## Over the `where` (the inverse degrees) -/

set_option maxHeartbeats 4000000 in
theorem W2_v14 (c : Dev nD) : W2 m ρ c (Proc.devRef .tc main_v14) = invVec (m ((c : Thread nD τ).loc main_arg1)) := by
  have h9 := W1_v9 m ρ c
  have h13 := W1_v13 m ρ c
  have h4 := W1_cst4 m ρ c
  show StableHlo.after hostOps0_1 (W1 m ρ c) (Proc.devRef .tc main_v14) = _
  generalize W1 m ρ c = V1 at h9 h13 h4 ⊢
  simp only [hostOps0_1]
  after_results
  rw [h9, h13, h4]
  refine Cert.TypedRef.toBuf_eq _ _ _ (heq_of_eq ?_)
  simp only [Cert.TypedRef.ofBuf_toBuf]
  unfold invVec
  exact congr (congr (congrArg select (Cert.TypedRef.ofBuf_eq _ _ _ HEq.rfl)) (Cert.TypedRef.ofBuf_eq _ _ _ HEq.rfl))
    (congrArg (fun z : FVec Ideal S_ .f32 => broadcastInDim S50000 ![] bcast_S_S50000 (id z))
      (Cert.TypedRef.ofBuf_eq _ _ _ HEq.rfl))
theorem W2_v1 (c : Dev nD) : W2 m ρ c (Proc.devRef .tc main_v1) = srcRaw (m ((c : Thread nD τ).loc main_arg1)) :=
  (show W2 m ρ c (Proc.devRef .tc main_v1) = W1 m ρ c (Proc.devRef .tc main_v1) by keeps hostOps0_1).trans (W1_v1 m ρ c)
theorem W2_v3 (c : Dev nD) : W2 m ρ c (Proc.devRef .tc main_v3) = dstRaw (m ((c : Thread nD τ).loc main_arg1)) :=
  (show W2 m ρ c (Proc.devRef .tc main_v3) = W1 m ρ c (Proc.devRef .tc main_v3) by keeps hostOps0_1).trans (W1_v3 m ρ c)
theorem W2_arg0 (c : Dev nD) : W2 m ρ c (Proc.devRef .tc main_arg0) = (m ((c : Thread nD τ).loc main_arg0)) :=
  (show W2 m ρ c (Proc.devRef .tc main_arg0) = W1 m ρ c (Proc.devRef .tc main_arg0) by keeps hostOps0_1).trans (W1_arg0 m ρ c)
theorem W2_arg2 (c : Dev nD) : W2 m ρ c (Proc.devRef .tc main_arg2) = (m ((c : Thread nD τ).loc main_arg2)) :=
  (show W2 m ρ c (Proc.devRef .tc main_arg2) = W1 m ρ c (Proc.devRef .tc main_arg2) by keeps hostOps0_1).trans (W1_arg2 m ρ c)
theorem W2_arg3 (c : Dev nD) : W2 m ρ c (Proc.devRef .tc main_arg3) = (m ((c : Thread nD τ).loc main_arg3)) :=
  (show W2 m ρ c (Proc.devRef .tc main_arg3) = W1 m ρ c (Proc.devRef .tc main_arg3) by keeps hostOps0_1).trans (W1_arg3 m ρ c)
theorem W2_arg4 (c : Dev nD) : W2 m ρ c (Proc.devRef .tc main_arg4) = (m ((c : Thread nD τ).loc main_arg4)) :=
  (show W2 m ρ c (Proc.devRef .tc main_arg4) = W1 m ρ c (Proc.devRef .tc main_arg4) by keeps hostOps0_1).trans (W1_arg4 m ρ c)
theorem W2_arg5 (c : Dev nD) : W2 m ρ c (Proc.devRef .tc main_arg5) = (m ((c : Thread nD τ).loc main_arg5)) :=
  (show W2 m ρ c (Proc.devRef .tc main_arg5) = W1 m ρ c (Proc.devRef .tc main_arg5) by keeps hostOps0_1).trans (W1_arg5 m ρ c)
theorem W2_arg6 (c : Dev nD) : W2 m ρ c (Proc.devRef .tc main_arg6) = (m ((c : Thread nD τ).loc main_arg6)) :=
  (show W2 m ρ c (Proc.devRef .tc main_arg6) = W1 m ρ c (Proc.devRef .tc main_arg6) by keeps hostOps0_1).trans (W1_arg6 m ρ c)
theorem W2_arg7 (c : Dev nD) : W2 m ρ c (Proc.devRef .tc main_arg7) = (m ((c : Thread nD τ).loc main_arg7)) :=
  (show W2 m ρ c (Proc.devRef .tc main_arg7) = W1 m ρ c (Proc.devRef .tc main_arg7) by keeps hostOps0_1).trans (W1_arg7 m ρ c)
theorem W2_arg8 (c : Dev nD) : W2 m ρ c (Proc.devRef .tc main_arg8) = (m ((c : Thread nD τ).loc main_arg8)) :=
  (show W2 m ρ c (Proc.devRef .tc main_arg8) = W1 m ρ c (Proc.devRef .tc main_arg8) by keeps hostOps0_1).trans (W1_arg8 m ρ c)
theorem W2_arg9 (c : Dev nD) : W2 m ρ c (Proc.devRef .tc main_arg9) = (m ((c : Thread nD τ).loc main_arg9)) :=
  (show W2 m ρ c (Proc.devRef .tc main_arg9) = W1 m ρ c (Proc.devRef .tc main_arg9) by keeps hostOps0_1).trans (W1_arg9 m ρ c)
theorem W2_arg10 (c : Dev nD) : W2 m ρ c (Proc.devRef .tc main_arg10) = (m ((c : Thread nD τ).loc main_arg10)) :=
  (show W2 m ρ c (Proc.devRef .tc main_arg10) = W1 m ρ c (Proc.devRef .tc main_arg10) by keeps hostOps0_1).trans (W1_arg10 m ρ c)
theorem W2_arg11 (c : Dev nD) : W2 m ρ c (Proc.devRef .tc main_arg11) = (m ((c : Thread nD τ).loc main_arg11)) :=
  (show W2 m ρ c (Proc.devRef .tc main_arg11) = W1 m ρ c (Proc.devRef .tc main_arg11) by keeps hostOps0_1).trans (W1_arg11 m ρ c)
theorem W2_arg12 (c : Dev nD) : W2 m ρ c (Proc.devRef .tc main_arg12) = (m ((c : Thread nD τ).loc main_arg12)) :=
  (show W2 m ρ c (Proc.devRef .tc main_arg12) = W1 m ρ c (Proc.devRef .tc main_arg12) by keeps hostOps0_1).trans (W1_arg12 m ρ c)

/-! ## At the first grid's entry -/

set_option maxHeartbeats 4000000 in
theorem W3_v25 (c : Dev nD) : W3 m ρ c (Proc.devRef .tc main_v25) = aggOf (m ((c : Thread nD τ).loc main_arg0)) (m ((c : Thread nD τ).loc main_arg1)) := by
  show StableHlo.after hostOps0_2 (W2 m ρ c) (Proc.devRef .tc main_v25) = _
  simp only [hostOps0_2]
  after_results <;> rfl
set_option maxHeartbeats 4000000 in
theorem W3_v15 (c : Dev nD) : W3 m ρ c (Proc.devRef .tc main_v15) = shapeCast S50000x1 (invVec (m ((c : Thread nD τ).loc main_arg1))) shapeCasts_S50000_S50000x1 := by
  have h14 := W2_v14 m ρ c
  show StableHlo.after hostOps0_2 (W2 m ρ c) (Proc.devRef .tc main_v15) = _
  generalize W2 m ρ c = V2 at h14 ⊢
  simp only [hostOps0_2]
  after_results
  rw [h14]
  rfl
set_option maxHeartbeats 4000000 in
theorem W3_v26 (c : Dev nD) : W3 m ρ c (Proc.devRef .tc main_v26) = shapeCast S1x128 (m ((c : Thread nD τ).loc main_arg4)) shapeCasts_S128_S1x128 := by
  show StableHlo.after hostOps0_2 (W2 m ρ c) (Proc.devRef .tc main_v26) = _
  simp only [hostOps0_2]
  after_results <;> rfl
theorem W3_v1 (c : Dev nD) : W3 m ρ c (Proc.devRef .tc main_v1) = srcRaw (m ((c : Thread nD τ).loc main_arg1)) :=
  (show W3 m ρ c (Proc.devRef .tc main_v1) = W2 m ρ c (Proc.devRef .tc main_v1) by keeps hostOps0_2).trans (W2_v1 m ρ c)
theorem W3_v3 (c : Dev nD) : W3 m ρ c (Proc.devRef .tc main_v3) = dstRaw (m ((c : Thread nD τ).loc main_arg1)) :=
  (show W3 m ρ c (Proc.devRef .tc main_v3) = W2 m ρ c (Proc.devRef .tc main_v3) by keeps hostOps0_2).trans (W2_v3 m ρ c)
theorem W3_arg0 (c : Dev nD) : W3 m ρ c (Proc.devRef .tc main_arg0) = (m ((c : Thread nD τ).loc main_arg0)) :=
  (show W3 m ρ c (Proc.devRef .tc main_arg0) = W2 m ρ c (Proc.devRef .tc main_arg0) by keeps hostOps0_2).trans (W2_arg0 m ρ c)
theorem W3_arg2 (c : Dev nD) : W3 m ρ c (Proc.devRef .tc main_arg2) = (m ((c : Thread nD τ).loc main_arg2)) :=
  (show W3 m ρ c (Proc.devRef .tc main_arg2) = W2 m ρ c (Proc.devRef .tc main_arg2) by keeps hostOps0_2).trans (W2_arg2 m ρ c)
theorem W3_arg3 (c : Dev nD) : W3 m ρ c (Proc.devRef .tc main_arg3) = (m ((c : Thread nD τ).loc main_arg3)) :=
  (show W3 m ρ c (Proc.devRef .tc main_arg3) = W2 m ρ c (Proc.devRef .tc main_arg3) by keeps hostOps0_2).trans (W2_arg3 m ρ c)
theorem W3_arg5 (c : Dev nD) : W3 m ρ c (Proc.devRef .tc main_arg5) = (m ((c : Thread nD τ).loc main_arg5)) :=
  (show W3 m ρ c (Proc.devRef .tc main_arg5) = W2 m ρ c (Proc.devRef .tc main_arg5) by keeps hostOps0_2).trans (W2_arg5 m ρ c)
theorem W3_arg6 (c : Dev nD) : W3 m ρ c (Proc.devRef .tc main_arg6) = (m ((c : Thread nD τ).loc main_arg6)) :=
  (show W3 m ρ c (Proc.devRef .tc main_arg6) = W2 m ρ c (Proc.devRef .tc main_arg6) by keeps hostOps0_2).trans (W2_arg6 m ρ c)
theorem W3_arg7 (c : Dev nD) : W3 m ρ c (Proc.devRef .tc main_arg7) = (m ((c : Thread nD τ).loc main_arg7)) :=
  (show W3 m ρ c (Proc.devRef .tc main_arg7) = W2 m ρ c (Proc.devRef .tc main_arg7) by keeps hostOps0_2).trans (W2_arg7 m ρ c)
theorem W3_arg8 (c : Dev nD) : W3 m ρ c (Proc.devRef .tc main_arg8) = (m ((c : Thread nD τ).loc main_arg8)) :=
  (show W3 m ρ c (Proc.devRef .tc main_arg8) = W2 m ρ c (Proc.devRef .tc main_arg8) by keeps hostOps0_2).trans (W2_arg8 m ρ c)
theorem W3_arg9 (c : Dev nD) : W3 m ρ c (Proc.devRef .tc main_arg9) = (m ((c : Thread nD τ).loc main_arg9)) :=
  (show W3 m ρ c (Proc.devRef .tc main_arg9) = W2 m ρ c (Proc.devRef .tc main_arg9) by keeps hostOps0_2).trans (W2_arg9 m ρ c)
theorem W3_arg10 (c : Dev nD) : W3 m ρ c (Proc.devRef .tc main_arg10) = (m ((c : Thread nD τ).loc main_arg10)) :=
  (show W3 m ρ c (Proc.devRef .tc main_arg10) = W2 m ρ c (Proc.devRef .tc main_arg10) by keeps hostOps0_2).trans (W2_arg10 m ρ c)
theorem W3_arg11 (c : Dev nD) : W3 m ρ c (Proc.devRef .tc main_arg11) = (m ((c : Thread nD τ).loc main_arg11)) :=
  (show W3 m ρ c (Proc.devRef .tc main_arg11) = W2 m ρ c (Proc.devRef .tc main_arg11) by keeps hostOps0_2).trans (W2_arg11 m ρ c)
theorem W3_arg12 (c : Dev nD) : W3 m ρ c (Proc.devRef .tc main_arg12) = (m ((c : Thread nD τ).loc main_arg12)) :=
  (show W3 m ρ c (Proc.devRef .tc main_arg12) = W2 m ρ c (Proc.devRef .tc main_arg12) by keeps hostOps0_2).trans (W2_arg12 m ρ c)

/-! ## Across the first grid -/

theorem W4_v1 (c : Dev nD) : W4 m ρ c (Proc.devRef .tc main_v1) = W3 m ρ c (Proc.devRef .tc main_v1) := W4_of_ne m ρ c main_v1 (by decide)
theorem W4_v3 (c : Dev nD) : W4 m ρ c (Proc.devRef .tc main_v3) = W3 m ρ c (Proc.devRef .tc main_v3) := W4_of_ne m ρ c main_v3 (by decide)
theorem W4_arg5 (c : Dev nD) : W4 m ρ c (Proc.devRef .tc main_arg5) = W3 m ρ c (Proc.devRef .tc main_arg5) := W4_of_ne m ρ c main_arg5 (by decide)
theorem W4_arg6 (c : Dev nD) : W4 m ρ c (Proc.devRef .tc main_arg6) = W3 m ρ c (Proc.devRef .tc main_arg6) := W4_of_ne m ρ c main_arg6 (by decide)
theorem W4_arg7 (c : Dev nD) : W4 m ρ c (Proc.devRef .tc main_arg7) = W3 m ρ c (Proc.devRef .tc main_arg7) := W4_of_ne m ρ c main_arg7 (by decide)
theorem W4_arg8 (c : Dev nD) : W4 m ρ c (Proc.devRef .tc main_arg8) = W3 m ρ c (Proc.devRef .tc main_arg8) := W4_of_ne m ρ c main_arg8 (by decide)
theorem W4_arg9 (c : Dev nD) : W4 m ρ c (Proc.devRef .tc main_arg9) = W3 m ρ c (Proc.devRef .tc main_arg9) := W4_of_ne m ρ c main_arg9 (by decide)
theorem W4_arg10 (c : Dev nD) : W4 m ρ c (Proc.devRef .tc main_arg10) = W3 m ρ c (Proc.devRef .tc main_arg10) := W4_of_ne m ρ c main_arg10 (by decide)
theorem W4_arg11 (c : Dev nD) : W4 m ρ c (Proc.devRef .tc main_arg11) = W3 m ρ c (Proc.devRef .tc main_arg11) := W4_of_ne m ρ c main_arg11 (by decide)
theorem W4_arg12 (c : Dev nD) : W4 m ρ c (Proc.devRef .tc main_arg12) = W3 m ρ c (Proc.devRef .tc main_arg12) := W4_of_ne m ρ c main_arg12 (by decide)
theorem W4_v15 (c : Dev nD) : W4 m ρ c (Proc.devRef .tc main_v15) = W3 m ρ c (Proc.devRef .tc main_v15) :=
  (W4_arr m ρ c 1).trans (((dat0 (V3 m ρ) c).arrAt_in 1 rfl _).trans (A_eq0 (V3 m ρ) c 1))
/-- The first grid's output: the first layer of the whole arrays it found. -/
theorem W4_v27 (c : Dev nD) : W4 m ρ c (Proc.devRef .tc main_v27) = Region0.G (V3 m ρ) c :=
  (W4_arr m ρ c 6).trans (Region0.final (V3 m ρ) c)

/-! ## Over the stretch between the first and the second grid -/

theorem W5_v1 (c : Dev nD) : W5 m ρ c (Proc.devRef .tc main_v1) = W4 m ρ c (Proc.devRef .tc main_v1) := by keeps hostOps1
theorem W5_v3 (c : Dev nD) : W5 m ρ c (Proc.devRef .tc main_v3) = W4 m ρ c (Proc.devRef .tc main_v3) := by keeps hostOps1
theorem W5_v15 (c : Dev nD) : W5 m ρ c (Proc.devRef .tc main_v15) = W4 m ρ c (Proc.devRef .tc main_v15) := by keeps hostOps1
theorem W5_v27 (c : Dev nD) : W5 m ρ c (Proc.devRef .tc main_v27) = W4 m ρ c (Proc.devRef .tc main_v27) := by keeps hostOps1
theorem W5_arg5 (c : Dev nD) : W5 m ρ c (Proc.devRef .tc main_arg5) = W4 m ρ c (Proc.devRef .tc main_arg5) := by keeps hostOps1
theorem W5_arg6 (c : Dev nD) : W5 m ρ c (Proc.devRef .tc main_arg6) = W4 m ρ c (Proc.devRef .tc main_arg6) := by keeps hostOps1
theorem W5_arg8 (c : Dev nD) : W5 m ρ c (Proc.devRef .tc main_arg8) = W4 m ρ c (Proc.devRef .tc main_arg8) := by keeps hostOps1
theorem W5_arg9 (c : Dev nD) : W5 m ρ c (Proc.devRef .tc main_arg9) = W4 m ρ c (Proc.devRef .tc main_arg9) := by keeps hostOps1
theorem W5_arg10 (c : Dev nD) : W5 m ρ c (Proc.devRef .tc main_arg10) = W4 m ρ c (Proc.devRef .tc main_arg10) := by keeps hostOps1
theorem W5_arg11 (c : Dev nD) : W5 m ρ c (Proc.devRef .tc main_arg11) = W4 m ρ c (Proc.devRef .tc main_arg11) := by keeps hostOps1
theorem W5_arg12 (c : Dev nD) : W5 m ρ c (Proc.devRef .tc main_arg12) = W4 m ρ c (Proc.devRef .tc main_arg12) := by keeps hostOps1
set_option maxHeartbeats 4000000 in
theorem W5_v37 (c : Dev nD) : W5 m ρ c (Proc.devRef .tc main_v37) = aggOf (W4 m ρ c (Proc.devRef .tc main_v27)) (m ((c : Thread nD τ).loc main_arg1)) := by
  show StableHlo.after hostOps1 (W4 m ρ c) (Proc.devRef .tc main_v37) = _
  simp only [hostOps1]
  after_results
  rw [W4_v1, W4_v3, W3_v1, W3_v3]
  rfl
set_option maxHeartbeats 4000000 in
theorem W5_v38 (c : Dev nD) : W5 m ρ c (Proc.devRef .tc main_v38) = shapeCast S1x128 (m ((c : Thread nD τ).loc main_arg7)) shapeCasts_S128_S1x128 := by
  show StableHlo.after hostOps1 (W4 m ρ c) (Proc.devRef .tc main_v38) = _
  simp only [hostOps1]
  after_results
  rw [W4_arg7, W3_arg7]
  rfl

/-! ## Across the second grid -/

theorem W6_v1 (c : Dev nD) : W6 m ρ c (Proc.devRef .tc main_v1) = W5 m ρ c (Proc.devRef .tc main_v1) := W6_of_ne m ρ c main_v1 (by decide)
theorem W6_v3 (c : Dev nD) : W6 m ρ c (Proc.devRef .tc main_v3) = W5 m ρ c (Proc.devRef .tc main_v3) := W6_of_ne m ρ c main_v3 (by decide)
theorem W6_arg8 (c : Dev nD) : W6 m ρ c (Proc.devRef .tc main_arg8) = W5 m ρ c (Proc.devRef .tc main_arg8) := W6_of_ne m ρ c main_arg8 (by decide)
theorem W6_arg9 (c : Dev nD) : W6 m ρ c (Proc.devRef .tc main_arg9) = W5 m ρ c (Proc.devRef .tc main_arg9) := W6_of_ne m ρ c main_arg9 (by decide)
theorem W6_arg10 (c : Dev nD) : W6 m ρ c (Proc.devRef .tc main_arg10) = W5 m ρ c (Proc.devRef .tc main_arg10) := W6_of_ne m ρ c main_arg10 (by decide)
theorem W6_arg11 (c : Dev nD) : W6 m ρ c (Proc.devRef .tc main_arg11) = W5 m ρ c (Proc.devRef .tc main_arg11) := W6_of_ne m ρ c main_arg11 (by decide)
theorem W6_arg12 (c : Dev nD) : W6 m ρ c (Proc.devRef .tc main_arg12) = W5 m ρ c (Proc.devRef .tc main_arg12) := W6_of_ne m ρ c main_arg12 (by decide)
theorem W6_v15 (c : Dev nD) : W6 m ρ c (Proc.devRef .tc main_v15) = W5 m ρ c (Proc.devRef .tc main_v15) :=
  (W6_arr m ρ c 1).trans (((dat1 (V5 m ρ) c).arrAt_in 1 rfl _).trans (A_eq1 (V5 m ρ) c 1))
/-- The second grid's output: the second layer of the whole arrays it found. -/
theorem W6_v39 (c : Dev nD) : W6 m ρ c (Proc.devRef .tc main_v39) = Region1.G (V5 m ρ) c :=
  (W6_arr m ρ c 6).trans (Region1.final (V5 m ρ) c)

/-! ## Over the stretch between the second and the third grid -/

theorem W7_v15 (c : Dev nD) : W7 m ρ c (Proc.devRef .tc main_v15) = W6 m ρ c (Proc.devRef .tc main_v15) := by keeps hostOps2
theorem W7_v39 (c : Dev nD) : W7 m ρ c (Proc.devRef .tc main_v39) = W6 m ρ c (Proc.devRef .tc main_v39) := by keeps hostOps2
theorem W7_arg8 (c : Dev nD) : W7 m ρ c (Proc.devRef .tc main_arg8) = W6 m ρ c (Proc.devRef .tc main_arg8) := by keeps hostOps2
theorem W7_arg9 (c : Dev nD) : W7 m ρ c (Proc.devRef .tc main_arg9) = W6 m ρ c (Proc.devRef .tc main_arg9) := by keeps hostOps2
set_option maxHeartbeats 4000000 in
theorem W7_v49 (c : Dev nD) : W7 m ρ c (Proc.devRef .tc main_v49) = aggOf (W6 m ρ c (Proc.devRef .tc main_v39)) (m ((c : Thread nD τ).loc main_arg1)) := by
  show StableHlo.after hostOps2 (W6 m ρ c) (Proc.devRef .tc main_v49) = _
  simp only [hostOps2]
  after_results
  rw [W6_v1, W6_v3, W5_v1, W5_v3, W4_v1, W4_v3, W3_v1, W3_v3]
  rfl
set_option maxHeartbeats 4000000 in
theorem W7_v50 (c : Dev nD) : W7 m ρ c (Proc.devRef .tc main_v50) = shapeCast S1x128 (m ((c : Thread nD τ).loc main_arg10)) shapeCasts_S128_S1x128 := by
  show StableHlo.after hostOps2 (W6 m ρ c) (Proc.devRef .tc main_v50) = _
  simp only [hostOps2]
  after_results
  rw [W6_arg10, W5_arg10, W4_arg10, W3_arg10]
  rfl
set_option maxHeartbeats 4000000 in
theorem W7_v51 (c : Dev nD) : W7 m ρ c (Proc.devRef .tc main_v51) = shapeCast S1x128 (m ((c : Thread nD τ).loc main_arg11)) shapeCasts_S128x1_S1x128 := by
  show StableHlo.after hostOps2 (W6 m ρ c) (Proc.devRef .tc main_v51) = _
  simp only [hostOps2]
  after_results
  rw [W6_arg11, W5_arg11, W4_arg11, W3_arg11]
  rfl
set_option maxHeartbeats 4000000 in
theorem W7_v52 (c : Dev nD) : W7 m ρ c (Proc.devRef .tc main_v52) = shapeCast S1x1 (m ((c : Thread nD τ).loc main_arg12)) shapeCasts_S1_S1x1 := by
  show StableHlo.after hostOps2 (W6 m ρ c) (Proc.devRef .tc main_v52) = _
  simp only [hostOps2]
  after_results
  rw [W6_arg12, W5_arg12, W4_arg12, W3_arg12]
  rfl

/-! ## The third grid's output and the result -/

theorem W8_v53 (c : Dev nD) : W8 m ρ c (Proc.devRef .tc main_v53) = Region2.G (V7 m ρ) c :=
  (W8_arr m ρ c 8).trans (Region2.final (V7 m ρ) c)

theorem W9_v54' (c : Dev nD) : W9 m ρ c (Proc.devRef .tc main_v54)
    = shapeCast S50000 (W8 m ρ c (Proc.devRef .tc main_v53)) shapeCasts_S50000x1_S50000 := by
  show StableHlo.after hostOps3 (W8 m ρ c) (Proc.devRef .tc main_v54) = _
  simp only [hostOps3]
  after_results <;> rfl

/-! ## The three grids' outputs as layers of the arguments -/

/-- After the first grid: the first layer. -/
theorem G0_eq (c : Dev nD) : Region0.G (V3 m ρ) c
    = layerOf (m ((c : Thread nD τ).loc main_arg0)) (m ((c : Thread nD τ).loc main_arg1)) (m ((c : Thread nD τ).loc main_arg2)) (m ((c : Thread nD τ).loc main_arg3)) (m ((c : Thread nD τ).loc main_arg4)) := by
  show layerFn (W3 m ρ c (Proc.devRef .tc main_v25)) (W3 m ρ c (Proc.devRef .tc main_v15)) (W3 m ρ c (Proc.devRef .tc main_arg0))
    (W3 m ρ c (Proc.devRef .tc main_arg2)) (W3 m ρ c (Proc.devRef .tc main_arg3)) (unrow (W3 m ρ c (Proc.devRef .tc main_v26))) = _
  rw [W3_v25, W3_v15, W3_v26, W3_arg0, W3_arg2, W3_arg3, cast_col, unrow_cast]
  rfl

/-- After the second grid: the second layer of the first. -/
theorem G1_eq (c : Dev nD) : Region1.G (V5 m ρ) c
    = layerOf (layerOf (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))
        (m ((c : Thread nD τ).loc main_arg5)) (m ((c : Thread nD τ).loc main_arg6)) (m ((c : Thread nD τ).loc main_arg7)) := by
  show layerFn (W5 m ρ c (Proc.devRef .tc main_v37)) (W5 m ρ c (Proc.devRef .tc main_v15)) (W5 m ρ c (Proc.devRef .tc main_v27))
    (W5 m ρ c (Proc.devRef .tc main_arg5)) (W5 m ρ c (Proc.devRef .tc main_arg6)) (unrow (W5 m ρ c (Proc.devRef .tc main_v38))) = _
  rw [W5_v37, W5_v15, W4_v15, W3_v15, W5_v27, W4_v27, G0_eq, W5_arg5, W4_arg5, W3_arg5, W5_arg6, W4_arg6, W3_arg6,
    W5_v38, cast_col, unrow_cast]
  rfl

/-- After the third grid: the head of the third layer of the second. -/
theorem G2_eq (c : Dev nD) : Region2.G (V7 m ρ) c
    = headFn (R := 50000) (N := 128)
        (layerOf (layerOf (layerOf (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))
          (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)))
        (m ((c : Thread nD τ).loc main_arg11)) (m ((c : Thread nD τ).loc main_arg12)) := by
  show headRowFn (layerFn (W7 m ρ c (Proc.devRef .tc main_v49)) (W7 m ρ c (Proc.devRef .tc main_v15)) (W7 m ρ c (Proc.devRef .tc main_v39))
    (W7 m ρ c (Proc.devRef .tc main_arg8)) (W7 m ρ c (Proc.devRef .tc main_arg9)) (unrow (W7 m ρ c (Proc.devRef .tc main_v50))))
    (W7 m ρ c (Proc.devRef .tc main_v51)) (W7 m ρ c (Proc.devRef .tc main_v52)) = _
  rw [W7_v49, W7_v15, W6_v15, W5_v15, W4_v15, W3_v15, W7_v39, W6_v39, G1_eq, W7_arg8, W6_arg8, W5_arg8, W4_arg8, W3_arg8,
    W7_arg9, W6_arg9, W5_arg9, W4_arg9, W3_arg9, W7_v50, W7_v51, W7_v52, cast_col, unrow_cast]
  exact headRowFn_eq _ _ _ (m ((c : Thread nD τ).loc main_arg11)) (m ((c : Thread nD τ).loc main_arg12))
    (fun j u => cast_N1_1N_apply _ _ j u) (fun u => cast_1_11_apply _ _ u)

/-- THE RESULT BUFFER at the last segment boundary: the network of the arguments. -/
theorem W9_v54 (c : Dev nD) : W9 m ρ c (Proc.devRef .tc main_v54) = netVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W9_v54', W8_v53, G2_eq]
  rfl

end Cert.KernelIdeal.HostValue

end
-- ==== Proof.RHost.lean ====
/-
  THE IDEALIZED REFERENCE'S RESULT AS THE SAME FUNCTION OF ITS ARGUMENTS.

  The reference is one straight line of host operations: the inverse degrees, then three times the summed messages of
  the current features, scaled, through a `dot_general`, plus the bias, plus the features through a second
  `dot_general`, rectified; then the head as a `dot_general` with the weight column plus the bias; then the column of
  logits read as a vector.  Its run ends with the result buffer at the operations' composed term.  Each stage of that
  term is the layer (the layer's host spelling), and the last the head, so the term is `netVal` of the arguments.
-/
import proofs.«131212_j63625645523668_1_alg».proof.Proof.RefRun
import proofs.«131212_j63625645523668_1_alg».proof.Proof.LibSageHead

set_option maxRecDepth 16384

noncomputable section

namespace Cert.ReferenceIdeal.HostValue

open Cert.ReferenceIdeal Cert.ReferenceIdeal.Gen
open Idealize.ShloMosaic Idealize.ShloMosaic.TcCoe Idealize.SL.Sem Idealize.ShloMosaic.ValueIdx
open Cert.Sage Cert.RowBias

/-- The contents of an `i32` array and of an `f32` array at the ideal values. -/
abbrev I32 (s : Shape) := (⟨s, .i32⟩ : BufTy).Contents (Elt Ideal)
abbrev F32 (s : Shape) := FVec Ideal s .f32

/-- The edges' source nodes: row 0 of the edge array. -/
def srcRaw (e : I32 S2x800000) : I32 S800000 :=
  shapeCast _ (extractStridedSlice S1x800000 ![0, 0] e slices_S2x800000_S1x800000_0_0) shapeCasts_S1x800000_S800000

/-- The edges' destination nodes: row 1 of the edge array. -/
def dstRaw (e : I32 S2x800000) : I32 S800000 :=
  shapeCast _ (extractStridedSlice S1x800000 ![1, 0] e slices_S2x800000_S1x800000_1_0) shapeCasts_S1x800000_S800000

/-- The summed messages: the rows of `h` at the edges' sources (a negative index counted from the end), added into the
    rows of a zero array at the edges' destinations. -/
def aggOf (h : F32 S50000x128) (e : I32 S2x800000) : F32 S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstRaw e))
    (Host.gather gather_S50000x128_S800000x1_S800000x128_1_0_n_n_0_1_1128 h
      (broadcastInDim S800000x1 ![0] bcast_S800000_S800000x1_0
        (select (cmpi .slt (srcRaw e) (broadcastInDim S800000 ![] bcast_S_S800000 (constantI S_ 32 0#32)))
          (addi (srcRaw e) (broadcastInDim S800000 ![] bcast_S_S800000 (constantI S_ 32 50000#32))) (srcRaw e))))

/-- The in-degrees: a one added at each edge's destination. -/
def degOf (e : I32 S2x800000) : F32 S50000 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstRaw e))
    (broadcastInDim S800000 ![] bcast_S_S800000 (constant (F := Ideal) S_ .f32 0x3F800000#32))

/-- The inverse degrees: `1 / max deg 1` where the degree is positive, zero elsewhere. -/
def invVec (e : I32 S2x800000) : F32 S50000 :=
  select (cmpf (F := Ideal) .ogt (degOf e) (broadcastInDim S50000 ![] bcast_S_S50000 (constant (F := Ideal) S_ .f32 0x00000000#32)))
    (Host.divf (F := Ideal) (broadcastInDim S50000 ![] bcast_S_S50000 (constant (F := Ideal) S_ .f32 0x3F800000#32))
      (maximumf (F := Ideal) (degOf e) (broadcastInDim S50000 ![] bcast_S_S50000 (constant (F := Ideal) S_ .f32 0x3F800000#32))))
    (broadcastInDim S50000 ![] bcast_S_S50000 (id (constant (F := Ideal) S_ .f32 0x00000000#32)))

/-- One layer of the network on all the nodes. -/
def layerOf (h : F32 S50000x128) (e : I32 S2x800000) (wl wr : F32 S128x128) (b : F32 S128) : F32 S50000x128 :=
  layerFn (R := 50000) (K := 128) (N := 128) (aggOf h e) (col (invVec e)) h wl wr b

/-- THE NETWORK: three layers, the head, and the column of logits read as a vector. -/
def netVal (x : F32 S50000x128) (e : I32 S2x800000) (wl0 wr0 : F32 S128x128) (b0 : F32 S128)
    (wl1 wr1 : F32 S128x128) (b1 : F32 S128) (wl2 wr2 : F32 S128x128) (b2 : F32 S128)
    (wh : F32 S128x1) (bh : F32 S1) : F32 S50000 :=
  shapeCast S50000
    (headFn (R := 50000) (N := 128) (layerOf (layerOf (layerOf x e wl0 wr0 b0) e wl1 wr1 b1) e wl2 wr2 b2) wh bh)
    shapeCasts_S50000x1_S50000
/-! ## One stage of the reference's term -/

/-- The host's spelling of one layer on all the nodes, as the program prints it. -/
def stageR (h : F32 S50000x128) (e : I32 S2x800000) (wl wr : F32 S128x128) (b : F32 S128) : F32 S50000x128 :=
  maximumf (F := Ideal) (addf (F := Ideal) (addf (F := Ideal)
      (Host.dotGeneral (F := Ideal) dot_S50000x128_S128x128_S50000x128_1_0_0_1_n_n none
        (mulf (F := Ideal) (aggOf h e) (broadcastInDim S50000x128 ![0, 1] bcast_S50000x1_S50000x128_0_1
          (broadcastInDim S50000x1 ![0] bcast_S50000_S50000x1_0 (invVec e)))) wl)
      (broadcastInDim S50000x128 ![0, 1] bcast_S1x128_S50000x128_0_1 (broadcastInDim S1x128 ![1] bcast_S128_S1x128_1 b)))
      (Host.dotGeneral (F := Ideal) dot_S50000x128_S128x128_S50000x128_1_0_0_1_n_n none h wr))
    (broadcastInDim S50000x128 ![] bcast_S_S50000x128 (constant (F := Ideal) S_ .f32 0x00000000#32))

/-- It is the layer: the inverse degrees broadcast to a column are the column of the inverse degrees. -/
theorem stageR_eq (h : F32 S50000x128) (e : I32 S2x800000) (wl wr : F32 S128x128) (b : F32 S128) :
    stageR h e wl wr b = layerOf h e wl wr b := by
  unfold stageR layerOf
  rw [← bcast_col (invVec e) bcast_S50000_S50000x1_0]
  exact hlayer_eq (R := 50000) (K := 128) (N := 128) _ _ _ _ _ _ bcast_S50000x1_S50000x128_0_1 bcast_S128_S1x128_1
    bcast_S1x128_S50000x128_0_1 bcast_S_S50000x128

/-- The host's spelling of the head is the head. -/
theorem headR_eq (y : F32 S50000x128) (wh : F32 S128x1) (bh : F32 S1) :
    addf (F := Ideal) (Host.dotGeneral (F := Ideal) dot_S50000x128_S128x1_S50000x1_1_0_0_1_n_n none y wh)
        (broadcastInDim S50000x1 ![0, 1] bcast_S1x1_S50000x1_0_1 (broadcastInDim S1x1 ![1] bcast_S1_S1x1_1 bh))
      = headFn (R := 50000) (N := 128) y wh bh :=
  hhead_eq (R := 50000) (N := 128) y wh bh bcast_S1_S1x1_1 bcast_S1x1_S50000x1_0_1

/-! ## The composed term -/

variable (m : (ℓ : Loc nD τ sig) → Buf (Elt Ideal) ℓ)

/-- The run's composed term is three stages, the head's spelling, and the cast of the column to a vector. -/
theorem res_stage (c : Dev nD) : Cert.ReferenceIdeal.ValueP.res_main_v77 (F := Ideal) m c
    = shapeCast S50000
        (addf (F := Ideal) (Host.dotGeneral (F := Ideal) (φ₁ := .f32) (φ₂ := .f32) dot_S50000x128_S128x1_S50000x1_1_0_0_1_n_n none
          (stageR (stageR (stageR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1))
            (m ((c.tc : Thread nD τ).loc main_arg5)) (m ((c.tc : Thread nD τ).loc main_arg6)) (m ((c.tc : Thread nD τ).loc main_arg7))) (m ((c.tc : Thread nD τ).loc main_arg1)) (m ((c.tc : Thread nD τ).loc main_arg8)) (m ((c.tc : Thread nD τ).loc main_arg9)) (m ((c.tc : Thread nD τ).loc main_arg10)))
          ((m ((c.tc : Thread nD τ).loc main_arg11)) : F32 S128x1))
          (broadcastInDim S50000x1 ![0, 1] bcast_S1x1_S50000x1_0_1 (broadcastInDim S1x1 ![1] bcast_S1_S1x1_1 (m ((c.tc : Thread nD τ).loc main_arg12)))))
        shapeCasts_S50000x1_S50000 := rfl

/-- THE REFERENCE'S RESULT: the network of the arguments. -/
theorem res_eq (c : Dev nD) : Cert.ReferenceIdeal.ValueP.res_main_v77 (F := Ideal) m c = netVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [res_stage, stageR_eq, stageR_eq, stageR_eq, headR_eq]
  rfl

end Cert.ReferenceIdeal.HostValue

end
-- ==== Proof.lean ====
/-
  THE CERTIFICATE: a three-layer graph network with mean aggregation and a linear head, computed by three grids of row
  blocks among host gathers and scatter-adds, against the same network as one straight line of host operations.

  At the ideal values both programs compute, for every node, the same function of the arguments: three times
  `max (((msum ⊙ inv) · Wl + b) + h · Wr) 0` over the summed messages of the features before, then `(∑ j, h j · wh j) + bh`.
  The kernel's three frames and the reference's frame are their runs with the result dropped; the kernel's idealization
  rewrote no operation; and the two results are equal because each is that one function (`netVal`) of arguments that
  agree.  No sum is regrouped and no input needs to be finite for the equality.
-/
import proofs.«131212_j63625645523668_1_alg».proof.Defs
import proofs.«131212_j63625645523668_1_alg».proof.Proof.Gen.Kernel
import proofs.«131212_j63625645523668_1_alg».proof.Proof.Gen.Kernel.Skeleton
import proofs.«131212_j63625645523668_1_alg».proof.Proof.Gen.Kernel.Launch
import proofs.«131212_j63625645523668_1_alg».proof.Proof.Gen.Kernel.Points
import proofs.«131212_j63625645523668_1_alg».proof.Proof.Gen.Kernel.Frame
import proofs.«131212_j63625645523668_1_alg».proof.Proof.Gen.KernelIdeal
import proofs.«131212_j63625645523668_1_alg».proof.Proof.Gen.KernelIdeal.Skeleton
import proofs.«131212_j63625645523668_1_alg».proof.Proof.Gen.KernelIdeal.Launch
import proofs.«131212_j63625645523668_1_alg».proof.Proof.Gen.KernelIdeal.Points
import proofs.«131212_j63625645523668_1_alg».proof.Proof.Gen.KernelIdeal.Frame
import proofs.«131212_j63625645523668_1_alg».proof.Proof.Gen.ReferenceIdeal
import proofs.«131212_j63625645523668_1_alg».proof.Proof.Gen.Pre_finite_inputs
import proofs.«131212_j63625645523668_1_alg».proof.Proof.KernelRun
import proofs.«131212_j63625645523668_1_alg».proof.Proof.KHost
import proofs.«131212_j63625645523668_1_alg».proof.Proof.RHost
import Idealize.ShloMosaic.Adequacy
import Idealize.ShloMosaic.Init

set_option maxRecDepth 16384

noncomputable section

namespace Cert.Proof

open Idealize.ShloMosaic Idealize.SL.Sem

/-! ## The two programs' host functions are the same functions -/

section Same
open Cert.KernelIdeal.HostValue (I32 F32)

theorem agg_same (h : F32 Cert.KernelIdeal.S50000x128) (e : I32 Cert.KernelIdeal.S2x800000) :
    Cert.ReferenceIdeal.HostValue.aggOf h e = Cert.KernelIdeal.HostValue.aggOf h e := rfl

theorem inv_same (e : I32 Cert.KernelIdeal.S2x800000) : Cert.ReferenceIdeal.HostValue.invVec e = Cert.KernelIdeal.HostValue.invVec e := rfl

theorem layer_same (h : F32 Cert.KernelIdeal.S50000x128) (e : I32 Cert.KernelIdeal.S2x800000) (wl wr : F32 Cert.KernelIdeal.S128x128) (b : F32 Cert.KernelIdeal.S128) :
    Cert.ReferenceIdeal.HostValue.layerOf h e wl wr b = Cert.KernelIdeal.HostValue.layerOf h e wl wr b := by
  unfold Cert.ReferenceIdeal.HostValue.layerOf Cert.KernelIdeal.HostValue.layerOf
  rw [agg_same, inv_same]

/-- The network, spelt over either program's dimension records, is one function. -/
theorem net_same (x : F32 Cert.KernelIdeal.S50000x128) (e : I32 Cert.KernelIdeal.S2x800000) (wl0 wr0 : F32 Cert.KernelIdeal.S128x128) (b0 : F32 Cert.KernelIdeal.S128)
    (wl1 wr1 : F32 Cert.KernelIdeal.S128x128) (b1 : F32 Cert.KernelIdeal.S128) (wl2 wr2 : F32 Cert.KernelIdeal.S128x128) (b2 : F32 Cert.KernelIdeal.S128)
    (wh : F32 Cert.KernelIdeal.S128x1) (bh : F32 Cert.KernelIdeal.S1) :
    Cert.ReferenceIdeal.HostValue.netVal x e wl0 wr0 b0 wl1 wr1 b1 wl2 wr2 b2 wh bh
      = Cert.KernelIdeal.HostValue.netVal x e wl0 wr0 b0 wl1 wr1 b1 wl2 wr2 b2 wh bh := by
  unfold Cert.ReferenceIdeal.HostValue.netVal Cert.KernelIdeal.HostValue.netVal
  rw [layer_same, layer_same, layer_same]

end Same

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to preserve. -/
theorem preserves : Cert.preserves_Kernel_KernelIdeal := trivial

/-- At the ideal values the kernel's result buffer ends at the network of its arguments (its run read back through the
    three grids) and the reference's at the network of its own (its composed term), and the arguments agree. -/
theorem algebraic : Cert.algebraic_KernelIdeal_ReferenceIdeal := by
  intro m ρ m' ρ' _ hagree
  refine ⟨fun c => Cert.KernelIdeal.HostValue.netVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.HostValue.W9_v54 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12⟩ := hagree c
    rw [Cert.ReferenceIdeal.HostValue.res_eq, a0, a1, a2, a3, a4, a5, a6, a7, a8, a9, a10, a11, a12]
    exact net_same _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
